-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S2048x1024 : Shape := ⟨2, ![2048, 1024]⟩
abbrev S1x256x1024 : Shape := ⟨3, ![1, 256, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4x2048x1024, .f32⟩
  | .local _ .vmem, ⟨0, _⟩ => ⟨S1x2048x1024, .f32⟩
  | .local _ .vmem, ⟨1, _⟩ => ⟨S1024x1024, .bf16⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x2048x1024, .f32⟩
  | .local _ .vmem, ⟨10, _⟩ => ⟨S2048x1024, .bf16⟩
  | .local _ .vmem, ⟨11, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_6 : BitVec 32 := 0#32
  let c0_i32 : BitVec 32 := 0#32
  let c1_i32 : BitVec 32 := 1#32
  let arg13 : BitVec 32 := Scf.iv c0_i32 c1_i32 k0_t1
  let c1_i32_5 : BitVec 32 := 1#32
  let v2 : BitVec 32 := Scalar.muli arg13 c1_i32_5
  let v3 : BitVec 32 := Scalar.addi c0_i32_6 v2
  let c256_i32 : BitVec 32 := 256#32
  let v4 : BitVec 32 := Scalar.muli v3 c256_i32
  v4
def k0_off1 (k0_t1 : Fin k0_t1_loop.trips) : Fin 3 → Nat :=
  let c0 : Index := 0#32
  let c0_i32_6 : BitVec 32 := 0#32
  let c0_i32 : BitVec 32 := 0#32
  let c1_i32 : BitVec 32 := 1#32
  let arg13 : BitVec 32 := Scf.iv c0_i32 c1_i32 k0_t1
  let c1_i32_5 : BitVec 32 := 1#32
  let v2 : BitVec 32 := Scalar.muli arg13 c1_i32_5
  let v3 : BitVec 32 := Scalar.addi c0_i32_6 v2
  let c256_i32 : BitVec 32 := 256#32
  let v4 : BitVec 32 := Scalar.muli v3 c256_i32
  let v5 : BitVec 32 := v4
  let v6 : Index := Scalar.indexCast v5
  let c0_7 : Index := 0#32
  ![0, v6.toNat, 0]
def k0_off2 (k0_t1 : Fin k0_t1_loop.trips) : Fin 2 → Nat :=
  let c0_i32_6 : BitVec 32 := 0#32
  let c0_i32 : BitVec 32 := 0#32
  let c1_i32 : BitVec 32 := 1#32
  let arg13 : BitVec 32 := Scf.iv c0_i32 c1_i32 k0_t1
  let c1_i32_5 : BitVec 32 := 1#32
  let v2 : BitVec 32 := Scalar.muli arg13 c1_i32_5
  let v3 : BitVec 32 := Scalar.addi c0_i32_6 v2
  let c256_i32 : BitVec 32 := 256#32
  let v4 : BitVec 32 := Scalar.muli v3 c256_i32
  let v5 : BitVec 32 := v4
  let v25 : Index := Scalar.indexCast v5
  let c0_17 : Index := 0#32
  ![v25.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_mult2 (k0_t2 : Fin k0_t2_loop.trips) : BitVec 32 :=
  let c0_i32_6 : BitVec 32 := 0#32
  let c0_i32_1 : BitVec 32 := 0#32
  let c1_i32_3 : BitVec 32 := 1#32
  let arg13 : BitVec 32 := Scf.iv c0_i32_1 c1_i32_3 k0_t2
  let c1_i32_5 : BitVec 32 := 1#32
  let v2 : BitVec 32 := Scalar.muli arg13 c1_i32_5
  let v3 : BitVec 32 := Scalar.addi c0_i32_6 v2
  let c256_i32 : BitVec 32 := 256#32
  let v4 : BitVec 32 := Scalar.muli v3 c256_i32
  v4
def k0_off3 (k0_t2 : Fin k0_t2_loop.trips) : Fin 3 → Nat :=
  let c0 : Index := 0#32
  let c0_i32_6 : BitVec 32 := 0#32
  let c0_i32_1 : BitVec 32 := 0#32
  let c1_i32_3 : BitVec 32 := 1#32
  let arg13 : BitVec 32 := Scf.iv c0_i32_1 c1_i32_3 k0_t2
  let c1_i32_5 : BitVec 32 := 1#32
  let v2 : BitVec 32 := Scalar.muli arg13 c1_i32_5
  let v3 : BitVec 32 := Scalar.addi c0_i32_6 v2
  let c256_i32 : BitVec 32 := 256#32
  let v4 : BitVec 32 := Scalar.muli v3 c256_i32
  let v5 : BitVec 32 := v4
  let v6 : Index := Scalar.indexCast v5
  let c0_7 : Index := 0#32
  ![0, v6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x1024.size a ≤ S1x2048x1024.size a
  k0_off2_inb : ∀ k0_t1 : Fin k0_t1_loop.trips, ∀ a, (k0_off2 k0_t1) a + S256x1024.size a ≤ S2048x1024.size a
  k0_off2_packedbf16 : ∀ k0_t1 : Fin k0_t1_loop.trips, (Rect.unit (s := S2048x1024) (k0_off2 k0_t1) S256x1024.size (k0_off2_inb k0_t1)).PackedRows (EltTy.packing .bf16)
  k0_t2_ok : k0_t2_loop.OK
  k0_mult2_dvd : ∀ k0_t2 : Fin k0_t2_loop.trips, 256 ∣ (k0_mult2 k0_t2).toNat
  k0_off3_inb : ∀ k0_t2 : Fin k0_t2_loop.trips, ∀ a, (k0_off3 k0_t2) a + S1x256x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048x1024.size a ≤ S4x2048x1024.size a
  hwx0_9 : ∀ i : grid0.Coords, EltTy.bits .f32 = 32 ∨ (Rect.block (s := S4x2048x1024) S1x2048x1024.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x2048x1024.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.AttnKernelTrips.lean ====
/-
  What one trip of each of the kernel's two counted loops stores.

  The kernel cuts the 2048 rows of a batch into eight tiles of 256 rows. Trip `k` of the first loop reads rows
  256·k … 256·k + 255 of the input block and stores, at the same rows of the two scratch arrays, the key tile
  (input tile · Wkᵀ + bk) and the value tile (input tile · Wvᵀ + bv). Trip `k` of the second loop reads the same rows
  of the input block and the two scratch arrays whole, and stores at those rows of the output block the attention
  of the tile's query rows against all keys and values, projected by Woᵀ, plus bo. Each store is one rectangle whose
  value is a pure function of what the trip loads; the two theorems below say exactly which.
-/
import proofs.«176141_j53412213293575_2_alg».proof.Proof.Gen.KernelIdeal.Loops

set_option maxRecDepth 16384
noncomputable section

namespace Cert.KernelIdeal.AttnK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Trip `k` of the first loop stores one piece into each scratch array, at rows 256·k …: the key tile and the value
    tile of the input rows it loads. -/
theorem trip1_pieces (𝒱 : Variants) (c : Dev nD) (bd : Option 𝒱.V) (i : grid0.Coords) (arg1 : Memref sig .tc .vmem S1x2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (X_arg1 : BufTy.Contents (Elt F) arg1.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 k).1
      = [⟨Rect.unit (s := S2048x1024) (k0_off2 k) S256x1024.size (k0_off2_inb k),
          k0_pay2 (View.readAt (Elt F) arg1.view (Rect.unit (s := S1x2048x1024) (k0_off1 k) S1x256x1024.size (k0_off1_inb k)).toLoadRect X_arg1)
            (View.readAt (Elt F) arg4.view (Rect.unit (s := S1024x1024) ![0, 0] S1024x1024.size inb_S1024x1024_S1024x1024_0_0).toLoadRect X_arg4)
            (View.readAt (Elt F) arg5.view (Rect.unit (s := S1x1024) ![0, 0] S1x1024.size inb_S1x1024_S1x1024_0_0).toLoadRect X_arg5)⟩]
    ∧ (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 k).2.1
      = [⟨Rect.unit (s := S2048x1024) (k0_off2 k) S256x1024.size (k0_off2_inb k),
          k0_pay3 (View.readAt (Elt F) arg1.view (Rect.unit (s := S1x2048x1024) (k0_off1 k) S1x256x1024.size (k0_off1_inb k)).toLoadRect X_arg1)
            (View.readAt (Elt F) arg6.view (Rect.unit (s := S1024x1024) ![0, 0] S1024x1024.size inb_S1024x1024_S1024x1024_0_0).toLoadRect X_arg6)
            (View.readAt (Elt F) arg7.view (Rect.unit (s := S1x1024) ![0, 0] S1x1024.size inb_S1x1024_S1x1024_0_0).toLoadRect X_arg7)⟩] := by
  unfold trip_k0_t1
  exact ⟨rfl, rfl⟩

/-- Trip `k` of the second loop stores one piece into the output block, at rows 256·k …: the projected attention of
    the query rows it loads against the whole key and value scratch arrays. -/
theorem trip2_pieces (𝒱 : Variants) (c : Dev nD) (bd : Option 𝒱.V) (i : grid0.Coords) (arg1 : Memref sig .tc .vmem S1x2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (X_arg1 : BufTy.Contents (Elt F) arg1.view.ty) (X_arg2 : BufTy.Contents (Elt F) arg2.view.ty) (X_arg3 : BufTy.Contents (Elt F) arg3.view.ty) (X_arg8 : BufTy.Contents (Elt F) arg8.view.ty) (X_arg9 : BufTy.Contents (Elt F) arg9.view.ty) (X_arg11 : BufTy.Contents (Elt F) arg11.view.ty) (X_arg12 : BufTy.Contents (Elt F) arg12.view.ty) (k : Fin k0_t2_loop.trips) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg8 X_arg9 X_arg11 X_arg12 k).1
      = [⟨Rect.unit (s := S1x2048x1024) (k0_off3 k) S1x256x1024.size (k0_off3_inb k),
          k0_pay4
            (k0_pay5 (View.readAt (Elt F) arg1.view (Rect.unit (s := S1x2048x1024) (k0_off3 k) S1x256x1024.size (k0_off3_inb k)).toLoadRect X_arg1)
              (View.readAt (Elt F) arg2.view (Rect.unit (s := S1024x1024) ![0, 0] S1024x1024.size inb_S1024x1024_S1024x1024_0_0).toLoadRect X_arg2)
              (View.readAt (Elt F) arg3.view (Rect.unit (s := S1x1024) ![0, 0] S1x1024.size inb_S1x1024_S1x1024_0_0).toLoadRect X_arg3)
              (View.readAt (Elt F) arg11.view (Rect.unit (s := S2048x1024) ![0, 0] S2048x1024.size inb_S2048x1024_S2048x1024_0_0).toLoadRect X_arg11)
              (View.readAt (Elt F) arg12.view (Rect.unit (s := S2048x1024) ![0, 0] S2048x1024.size inb_S2048x1024_S2048x1024_0_0).toLoadRect X_arg12)
              (View.readAt (Elt F) arg8.view (Rect.unit (s := S1024x1024) ![0, 0] S1024x1024.size inb_S1024x1024_S1024x1024_0_0).toLoadRect X_arg8))
            (View.readAt (Elt F) arg9.view (Rect.unit (s := S1x1024) ![0, 0] S1x1024.size inb_S1x1024_S1x1024_0_0).toLoadRect X_arg9)⟩] := by
  unfold trip_k0_t2
  dsimp only
  unfold trip_k0_t2.sl.r
  rfl

end Cert.KernelIdeal.AttnK

end
-- ==== Proof.AttnKernelLoops.lean ====
/-
  The piece lists the kernel's two counted loops leave, as sets.

  After `n` trips a loop has stored the pieces of trips 0 … n − 1, nothing else: every piece in the list is some
  earlier trip's piece, and every earlier trip's piece is in the list. These two facts per loop are all that the
  value of the scratch arrays and of the output block needs from the loops: the first says every stored piece is a
  tile of one function, the second that the tiles cover every row.
-/
import proofs.«176141_j53412213293575_2_alg».proof.Proof.AttnKernelTrips

set_option maxRecDepth 16384
noncomputable section

namespace Cert.KernelIdeal.AttnK

open Cert.KernelIdeal Cert.KernelIdeal.Gen
open Idealize.ShloMosaic Idealize.ShloMosaic.TcCoe
open Idealize.SL Idealize.SL.Sem

variable {F : FTy → Type} [FloatOps F]

/-! ## The first loop: the key and value scratch arrays -/

section Loop1
variable (𝒱 : Variants) (c : Dev nD) (bd : Option 𝒱.V) (i : grid0.Coords) (arg1 : Memref sig .tc .vmem S1x2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (X_arg1 : BufTy.Contents (Elt F) arg1.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

/-- Every piece the first `n` trips stored into the key scratch is one of those trips' pieces. -/
theorem mem_keys_before (n : ℕ) (hn : n ≤ k0_t1_loop.trips) (p : View.Piece (Elt F) S2048x1024 .bf16)
    (hp : p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 n).1) :
    ∃ k : Fin k0_t1_loop.trips, k.val < n ∧ p ∈ (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 k).1 := by
  induction n with
  | zero => rw [pb_k0_t1.eq_1] at hp; exact absurd hp List.not_mem_nil
  | succ n ih =>
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 ⟨n, hn⟩
    rw [show n + 1 = (⟨n, hn⟩ : Fin k0_t1_loop.trips).val + 1 from rfl, e] at hp
    rcases List.mem_append.mp hp with h | h
    · exact ⟨⟨n, hn⟩, Nat.lt_succ_self n, h⟩
    · obtain ⟨k, hk, hm⟩ := ih (Nat.le_of_succ_le hn) h
      exact ⟨k, Nat.lt_succ_of_lt hk, hm⟩

/-- Each of the first `n` trips' key pieces is in the list. -/
theorem keys_before_of_trip (n : ℕ) (hn : n ≤ k0_t1_loop.trips) (k : Fin k0_t1_loop.trips) (hk : k.val < n)
    (p : View.Piece (Elt F) S2048x1024 .bf16) (hp : p ∈ (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 k).1) :
    p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 n).1 := by
  induction n with
  | zero => exact absurd hk (Nat.not_lt_zero _)
  | succ n ih =>
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 ⟨n, hn⟩
    rw [show n + 1 = (⟨n, hn⟩ : Fin k0_t1_loop.trips).val + 1 from rfl, e]
    refine List.mem_append.mpr ?_
    rcases Nat.lt_succ_iff_lt_or_eq.mp hk with h | h
    · exact Or.inr (ih (Nat.le_of_succ_le hn) h)
    · have : k = ⟨n, hn⟩ := Fin.ext h
      subst this; exact Or.inl hp

/-- Every piece the first `n` trips stored into the value scratch is one of those trips' pieces. -/
theorem mem_values_before (n : ℕ) (hn : n ≤ k0_t1_loop.trips) (p : View.Piece (Elt F) S2048x1024 .bf16)
    (hp : p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 n).2) :
    ∃ k : Fin k0_t1_loop.trips, k.val < n ∧ p ∈ (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 k).2.1 := by
  induction n with
  | zero => rw [pb_k0_t1.eq_1] at hp; exact absurd hp List.not_mem_nil
  | succ n ih =>
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 ⟨n, hn⟩
    rw [show n + 1 = (⟨n, hn⟩ : Fin k0_t1_loop.trips).val + 1 from rfl, e] at hp
    rcases List.mem_append.mp hp with h | h
    · exact ⟨⟨n, hn⟩, Nat.lt_succ_self n, h⟩
    · obtain ⟨k, hk, hm⟩ := ih (Nat.le_of_succ_le hn) h
      exact ⟨k, Nat.lt_succ_of_lt hk, hm⟩

/-- Each of the first `n` trips' value pieces is in the list. -/
theorem values_before_of_trip (n : ℕ) (hn : n ≤ k0_t1_loop.trips) (k : Fin k0_t1_loop.trips) (hk : k.val < n)
    (p : View.Piece (Elt F) S2048x1024 .bf16) (hp : p ∈ (trip_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 k).2.1) :
    p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 n).2 := by
  induction n with
  | zero => exact absurd hk (Nat.not_lt_zero _)
  | succ n ih =>
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 X_arg1 X_arg4 X_arg5 X_arg6 X_arg7 ⟨n, hn⟩
    rw [show n + 1 = (⟨n, hn⟩ : Fin k0_t1_loop.trips).val + 1 from rfl, e]
    refine List.mem_append.mpr ?_
    rcases Nat.lt_succ_iff_lt_or_eq.mp hk with h | h
    · exact Or.inr (ih (Nat.le_of_succ_le hn) h)
    · have : k = ⟨n, hn⟩ := Fin.ext h
      subst this; exact Or.inl hp

end Loop1

/-! ## The second loop: the output block -/

section Loop2
variable (𝒱 : Variants) (c : Dev nD) (bd : Option 𝒱.V) (i : grid0.Coords) (arg1 : Memref sig .tc .vmem S1x2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (X_arg1 : BufTy.Contents (Elt F) arg1.view.ty) (X_arg2 : BufTy.Contents (Elt F) arg2.view.ty) (X_arg3 : BufTy.Contents (Elt F) arg3.view.ty) (X_arg8 : BufTy.Contents (Elt F) arg8.view.ty) (X_arg9 : BufTy.Contents (Elt F) arg9.view.ty) (X_arg11 : BufTy.Contents (Elt F) arg11.view.ty) (X_arg12 : BufTy.Contents (Elt F) arg12.view.ty)

/-- Every piece the first `n` trips stored into the output block is one of those trips' pieces. -/
theorem mem_out_before (n : ℕ) (hn : n ≤ k0_t2_loop.trips) (p : View.Piece (Elt F) S1x2048x1024 .f32)
    (hp : p ∈ pb_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg8 X_arg9 X_arg11 X_arg12 n) :
    ∃ k : Fin k0_t2_loop.trips, k.val < n ∧ p ∈ (trip_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg8 X_arg9 X_arg11 X_arg12 k).1 := by
  induction n with
  | zero => rw [pb_k0_t2.eq_1] at hp; exact absurd hp List.not_mem_nil
  | succ n ih =>
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg8 X_arg9 X_arg11 X_arg12 ⟨n, hn⟩
    rw [show n + 1 = (⟨n, hn⟩ : Fin k0_t2_loop.trips).val + 1 from rfl, e] at hp
    rcases List.mem_append.mp hp with h | h
    · exact ⟨⟨n, hn⟩, Nat.lt_succ_self n, h⟩
    · obtain ⟨k, hk, hm⟩ := ih (Nat.le_of_succ_le hn) h
      exact ⟨k, Nat.lt_succ_of_lt hk, hm⟩

/-- Each of the first `n` trips' output pieces is in the list. -/
theorem out_before_of_trip (n : ℕ) (hn : n ≤ k0_t2_loop.trips) (k : Fin k0_t2_loop.trips) (hk : k.val < n)
    (p : View.Piece (Elt F) S1x2048x1024 .f32) (hp : p ∈ (trip_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg8 X_arg9 X_arg11 X_arg12 k).1) :
    p ∈ pb_k0_t2 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg8 X_arg9 X_arg11 X_arg12 n := by
  induction n with
  | zero => exact absurd hk (Nat.not_lt_zero _)
  | succ n ih =>
    have e := pb_k0_t2_succ (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg8 X_arg9 X_arg11 X_arg12 ⟨n, hn⟩
    rw [show n + 1 = (⟨n, hn⟩ : Fin k0_t2_loop.trips).val + 1 from rfl, e]
    refine List.mem_append.mpr ?_
    rcases Nat.lt_succ_iff_lt_or_eq.mp hk with h | h
    · exact Or.inr (ih (Nat.le_of_succ_le hn) h)
    · have : k = ⟨n, hn⟩ := Fin.ext h
      subst this; exact Or.inl hp

end Loop2

end Cert.KernelIdeal.AttnK

end
-- ==== Proof.AttnSpec.lean ====
/-
  Single-head attention over the whole hidden width, one element at a time on the extended reals.

  For batch `n`, query row `s` and output column `o`, with the four weight matrices stored [out, in]:
    q, k, v    = x·Wᵀ + b                    three linear layers of the same input rows
    score s j  = ⟨q s, k j⟩ · c               the inner product over the hidden width, scaled by the f32 word
                                             0x3D000000 (2⁻⁵ = 1/32 = 1/√1024)
    M s        = max over j of score s j      the fold of `max` from the f32 word of −∞
    e s j      = exp (score s j − M s)
    Z s        = Σ_j e s j
    a s j      = e s j / Z s                  the softmax weights of row s
    ctx s h    = Σ_j a s j · v j h
    out s o    = Σ_h ctx s h · Wo o h + bo o
  Every sum is a finite sum of extended reals indexed by a coordinate, so neither the order in which a program
  accumulates it nor the way it cuts the rows into tiles appears here: row `s` of the result depends on row `s`
  of `q` and on all of `k` and `v` of the same batch, and on nothing else.
-/
import Idealize.ShloMosaic.PureOps.Ideal
import Idealize.ShloMosaic.Lib.ValueIdx

noncomputable section

namespace Cert.Attn

open Idealize.ShloMosaic Idealize.ShloMosaic.ValueIdx

/-- A [4, 2048, 1024] array of extended reals: batch, row, hidden coordinate. -/
abbrev Seq := (⟨3, ![4, 2048, 1024]⟩ : Shape).Idx → EReal
/-- A [1024, 1024] weight matrix, stored [out, in]. -/
abbrev Weight := (⟨2, ![1024, 1024]⟩ : Shape).Idx → EReal
/-- A [1024] bias. -/
abbrev Bias := (⟨1, ![1024]⟩ : Shape).Idx → EReal

/-- The scale of the scores: the f32 word of 2⁻⁵, read as an extended real. -/
abbrev scale : EReal := (Ideal.ofBits .f32 0x3D000000#32 : EReal)
/-- The value the row maximum is folded from: the f32 word of −∞. -/
abbrev negInf : EReal := (Ideal.ofBits .f32 0xFF800000#32 : EReal)

/-- A linear layer: row `s` of batch `n` against row `o` of the weights, plus the bias at `o`. -/
def lin (x : Seq) (W : Weight) (b : Bias) (n : Fin 4) (s : Fin 2048) (o : Fin 1024) : EReal :=
  (∑ h : Fin 1024, x (ix3 n s h) * W (ix2 o h)) + b (ix1 o)

/-- The scaled score of query row `s` against key row `j`. -/
def score (x : Seq) (Wq : Weight) (bq : Bias) (Wk : Weight) (bk : Bias) (n : Fin 4) (s j : Fin 2048) : EReal :=
  (∑ h : Fin 1024, lin x Wq bq n s h * lin x Wk bk n j h) * scale

/-- The largest score of row `s`. -/
def rowMax (x : Seq) (Wq : Weight) (bq : Bias) (Wk : Weight) (bk : Bias) (n : Fin 4) (s : Fin 2048) : EReal :=
  (Finset.univ : Finset (Fin 2048)).fold max negInf (fun j => score x Wq bq Wk bk n s j)

/-- The exponential of a score shifted by its row's maximum. -/
def expo (x : Seq) (Wq : Weight) (bq : Bias) (Wk : Weight) (bk : Bias) (n : Fin 4) (s j : Fin 2048) : EReal :=
  Ideal.exp (score x Wq bq Wk bk n s j - rowMax x Wq bq Wk bk n s)

/-- The normalizer of row `s`. -/
def rowSum (x : Seq) (Wq : Weight) (bq : Bias) (Wk : Weight) (bk : Bias) (n : Fin 4) (s : Fin 2048) : EReal :=
  ∑ j : Fin 2048, expo x Wq bq Wk bk n s j

/-- The softmax weight row `s` gives key row `j`. -/
def weight (x : Seq) (Wq : Weight) (bq : Bias) (Wk : Weight) (bk : Bias) (n : Fin 4) (s j : Fin 2048) : EReal :=
  Ideal.div (expo x Wq bq Wk bk n s j) (rowSum x Wq bq Wk bk n s)

/-- The context: the value rows averaged by row `s`'s softmax weights. -/
def ctx (x : Seq) (Wq : Weight) (bq : Bias) (Wk : Weight) (bk : Bias) (Wv : Weight) (bv : Bias)
    (n : Fin 4) (s : Fin 2048) (h : Fin 1024) : EReal :=
  ∑ j : Fin 2048, weight x Wq bq Wk bk n s j * lin x Wv bv n j h

/-- The output projection of the context, at coordinates. -/
def outAt (x : Seq) (Wq : Weight) (bq : Bias) (Wk : Weight) (bk : Bias) (Wv : Weight) (bv : Bias) (Wo : Weight) (bo : Bias)
    (n : Fin 4) (s : Fin 2048) (o : Fin 1024) : EReal :=
  (∑ h : Fin 1024, ctx x Wq bq Wk bk Wv bv n s h * Wo (ix2 o h)) + bo (ix1 o)

/-- The whole result array, as one function of the nine argument arrays. -/
def out (x : Seq) (Wq : Weight) (bq : Bias) (Wk : Weight) (bk : Bias) (Wv : Weight) (bv : Bias) (Wo : Weight) (bo : Bias) : Seq :=
  fun i => outAt x Wq bq Wk bk Wv bv Wo bo (i 0) (i 1) (i 2)

theorem out_ix3 (x : Seq) (Wq : Weight) (bq : Bias) (Wk : Weight) (bk : Bias) (Wv : Weight) (bv : Bias) (Wo : Weight) (bo : Bias)
    (n : Fin 4) (s : Fin 2048) (o : Fin 1024) :
    out x Wq bq Wk bk Wv bv Wo bo (ix3 n s o) = outAt x Wq bq Wk bk Wv bv Wo bo n s o := rfl

end Cert.Attn

end
-- ==== Proof.AttnRow.lean ====
/-
  Attention of ONE query row, as a function of that row `q` and of all key and value rows `K`, `V` of its batch.

  The result of single-head attention at (batch, row, column) depends on the input only through the row's query
  vector and the batch's key and value matrices. Writing it as a function of those three makes the two programs
  meet: a program that computes a tile of rows at a time evaluates this function at each of the tile's rows.
-/
import proofs.«176141_j53412213293575_2_alg».proof.Proof.AttnSpec

noncomputable section

namespace Cert.Attn

open Idealize.ShloMosaic Idealize.ShloMosaic.ValueIdx

/-- The scaled score of the query vector `q` against key row `j`. -/
def rowScore (q : Fin 1024 → EReal) (K : Fin 2048 → Fin 1024 → EReal) (j : Fin 2048) : EReal :=
  (∑ h : Fin 1024, q h * K j h) * scale

/-- The largest of the row's scores. -/
def rowMaxOf (q : Fin 1024 → EReal) (K : Fin 2048 → Fin 1024 → EReal) : EReal :=
  (Finset.univ : Finset (Fin 2048)).fold max negInf (fun j => rowScore q K j)

/-- The exponential of a score shifted by the row's maximum. -/
def rowExp (q : Fin 1024 → EReal) (K : Fin 2048 → Fin 1024 → EReal) (j : Fin 2048) : EReal :=
  Ideal.exp (rowScore q K j - rowMaxOf q K)

/-- The row's normalizer. -/
def rowZ (q : Fin 1024 → EReal) (K : Fin 2048 → Fin 1024 → EReal) : EReal :=
  ∑ j : Fin 2048, rowExp q K j

/-- The softmax weight the row gives key row `j`. -/
def rowWeight (q : Fin 1024 → EReal) (K : Fin 2048 → Fin 1024 → EReal) (j : Fin 2048) : EReal :=
  Ideal.div (rowExp q K j) (rowZ q K)

/-- The row's context vector: the value rows averaged by the softmax weights. -/
def rowCtx (q : Fin 1024 → EReal) (K V : Fin 2048 → Fin 1024 → EReal) (h : Fin 1024) : EReal :=
  ∑ j : Fin 2048, rowWeight q K j * V j h

/-- The output projection of the row's context, at column `o`. -/
def rowOut (q : Fin 1024 → EReal) (K V : Fin 2048 → Fin 1024 → EReal) (Wo : Fin 1024 → Fin 1024 → EReal) (bo : Fin 1024 → EReal)
    (o : Fin 1024) : EReal :=
  (∑ h : Fin 1024, rowCtx q K V h * Wo o h) + bo o

/-- The whole-array specification at (n, s, o) is the one-row function at row `s`'s query vector and batch `n`'s keys
    and values: the two are the same expression. -/
theorem outAt_eq_rowOut (x : Seq) (Wq : Weight) (bq : Bias) (Wk : Weight) (bk : Bias) (Wv : Weight) (bv : Bias) (Wo : Weight) (bo : Bias)
    (n : Fin 4) (s : Fin 2048) (o : Fin 1024) :
    outAt x Wq bq Wk bk Wv bv Wo bo n s o
      = rowOut (lin x Wq bq n s) (lin x Wk bk n) (lin x Wv bv n) (fun o h => Wo (ix2 o h)) (fun o => bo (ix1 o)) o := rfl

end Cert.Attn

end
-- ==== Proof.LibKeepdims.lean ====
/-
  Layout lemmas for a row statistic kept as a column: a vector [a] seen as a column [a, 1], and a column [a, 1]
  repeated along the rows to [a, b], each read at an index written by coordinates. (The library reads the leading-unit-axis
  forms [a] → [1, a] and [1, b] → [a, b]; these are the trailing-unit-axis forms every `keepdims` reduction meets.)
-/
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.AttnKernelPayload.lean ====
/-
  The kernel's pure values read at an index, on the extended reals.

  Each value the kernel stores is a composition of elementwise operations, layout operations and contractions of
  the blocks it has loaded. Read at explicit coordinates:
    the query and key tiles   (r, h) ↦ Σ_h' x(0, r, h') · W(h', h) + b(0, h)        a linear layer of a tile of rows;
    the output tile           (0, r, o) ↦ y(r, o) + b(0, o)                         the bias added to the projected rows;
    the projected rows        (r, o) ↦ Σ_h ctx_r(h) · Wo(h, o)
  where ctx_r is the attention of ONE query row: with q = the row's linear layer, the scores Σ_h q(h) · K(j, h) times the
  f32 word of 2⁻⁵; the row's maximum folded from the word of −∞; the exponentials of the shifted scores; their sum from
  the zero word; the quotients; and the sum over the key rows of the quotients times V(j, h). Rounding to the narrow
  format is the identity on the extended reals, and a cast to the same shape is the identity.
-/
import proofs.«176141_j53412213293575_2_alg».proof.Proof.Gen.KernelIdeal.Skeleton
import proofs.«176141_j53412213293575_2_alg».proof.Proof.AttnRow
import proofs.«176141_j53412213293575_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPay

open Cert.KernelIdeal Cert.KernelIdeal.Gen Idealize.ShloMosaic Idealize.ShloMosaic.ValueIdx

/-! ## The contractions read at coordinates -/

/-- The left operand's kept axis carries the output's row coordinate. -/
theorem lhsA_non (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl

/-- The right operand's kept axis carries the output's column coordinate. -/
theorem rhsA_non (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256, 1024] tile times a [1024, 1024] matrix stored [in, out], into the zero tile: at (r, c) the sum over the shared
    coordinate of the tile's row r times the matrix's column c. -/
theorem matmulA_apply {φ₁ φ₂ : FTy} (lhs : FVec Ideal S256x1024 φ₁) (rhs : FVec Ideal S1024x1024 φ₂) (r : Fin 256) (c : Fin 1024) :
    matmul dot_S256x1024_S1024x1024_S256x1024_1_0_0_1_n_n none lhs rhs (constant (F := Ideal) S256x1024 .f32 0x00000000#32) (ix2 r c)
      = ∑ k : Fin 1024, lhs (ix2 r k) * rhs (ix2 k c) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c) ((contrEquiv1 dot_S256x1024_S1024x1024_S256x1024_1_0_0_1_n_n 1024 rfl rfl).symm k) = ix2 r k := funext fun a => Fin.ext (by
    match a with
    | ⟨0, _⟩ => exact lhsA_non _ _
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 r c) ((contrEquiv1 dot_S256x1024_S1024x1024_S256x1024_1_0_0_1_n_n 1024 rfl rfl).symm k) = ix2 k c := funext fun a => Fin.ext (by
    match a with
    | ⟨0, _⟩ => exact (dot_S256x1024_S1024x1024_S256x1024_1_0_0_1_n_n.rhsIdx_val_of_single rfl _ _).trans hk
    | ⟨1, _⟩ => exact rhsA_non _ _)
  rw [el, er]

/-- The left operand's kept axis carries the output's row coordinate. -/
theorem lhsB_non (i : S256x2048.Idx) (q : dot_S256x1024_S2048x1024_S256x2048_1_1_0_0_n_n.contr.Idx) : (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl

/-- The right operand's kept axis carries the output's column coordinate. -/
theorem rhsB_non (i : S256x2048.Idx) (q : dot_S256x1024_S2048x1024_S256x2048_1_1_0_0_n_n.contr.Idx) : (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl

/-- A [256, 1024] tile times the transpose of a [2048, 1024] matrix, into the zero tile: at (r, c) the sum over the shared
    coordinate of the tile's row r times the matrix's row c. -/
theorem matmulB_apply {φ₁ φ₂ : FTy} (lhs : FVec Ideal S256x1024 φ₁) (rhs : FVec Ideal S2048x1024 φ₂) (r : Fin 256) (c : Fin 2048) :
    matmul dot_S256x1024_S2048x1024_S256x2048_1_1_0_0_n_n none lhs rhs (constant (F := Ideal) S256x2048 .f32 0x00000000#32) (ix2 r c)
      = ∑ k : Fin 1024, lhs (ix2 r k) * rhs (ix2 c k) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 r c) ((contrEquiv1 dot_S256x1024_S2048x1024_S256x2048_1_1_0_0_n_n 1024 rfl rfl).symm k) = ix2 r k := funext fun a => Fin.ext (by
    match a with
    | ⟨0, _⟩ => exact lhsB_non _ _
    | ⟨1, _⟩ => exact (dot_S256x1024_S2048x1024_S256x2048_1_1_0_0_n_n.lhsIdx_val_of_single rfl _ _).trans hk)
  have er : dot_S256x1024_S2048x1024_S256x2048_1_1_0_0_n_n.rhsIdx (ix2 r c) ((contrEquiv1 dot_S256x1024_S2048x1024_S256x2048_1_1_0_0_n_n 1024 rfl rfl).symm k) = ix2 c k := funext fun a => Fin.ext (by
    match a with
    | ⟨0, _⟩ => exact rhsB_non _ _
    | ⟨1, _⟩ => exact (dot_S256x1024_S2048x1024_S256x2048_1_1_0_0_n_n.rhsIdx_val_of_single rfl _ _).trans hk)
  rw [el, er]

/-- The left operand's kept axis carries the output's row coordinate. -/
theorem lhsC_non (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl

/-- The right operand's kept axis carries the output's column coordinate. -/
theorem rhsC_non (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- A [256, 2048] tile times a [2048, 1024] matrix, into the zero tile: at (r, c) the sum over the shared coordinate of the
    tile's row r times the matrix's column c. -/
theorem matmulC_apply {φ₁ φ₂ : FTy} (lhs : FVec Ideal S256x2048 φ₁) (rhs : FVec Ideal S2048x1024 φ₂) (r : Fin 256) (c : Fin 1024) :
    matmul dot_S256x2048_S2048x1024_S256x1024_1_0_0_1_n_n none lhs rhs (constant (F := Ideal) S256x1024 .f32 0x00000000#32) (ix2 r c)
      = ∑ k : Fin 2048, lhs (ix2 r k) * rhs (ix2 k c) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r c) ((contrEquiv1 dot_S256x2048_S2048x1024_S256x1024_1_0_0_1_n_n 2048 rfl rfl).symm k) = ix2 r k := funext fun a => Fin.ext (by
    match a with
    | ⟨0, _⟩ => exact lhsC_non _ _
    | ⟨1, _⟩ => exact (dot_S256x2048_S2048x1024_S256x1024_1_0_0_1_n_n.lhsIdx_val_of_single rfl _ _).trans hk)
  have er : dot_S256x2048_S2048x1024_S256x1024_1_0_0_1_n_n.rhsIdx (ix2 r c) ((contrEquiv1 dot_S256x2048_S2048x1024_S256x1024_1_0_0_1_n_n 2048 rfl rfl).symm k) = ix2 k c := funext fun a => Fin.ext (by
    match a with
    | ⟨0, _⟩ => exact (dot_S256x2048_S2048x1024_S256x1024_1_0_0_1_n_n.rhsIdx_val_of_single rfl _ _).trans hk
    | ⟨1, _⟩ => exact rhsC_non _ _)
  rw [el, er]

/-! ## The linear layers of a tile and the output tile -/

/-- The query tile: the tile's rows (the leading unit axis dropped, the narrow rounding the identity) times the weights,
    plus the [1, 1024] bias repeated down the rows. -/
theorem pay2_apply (v7 : Vec Ideal S1x256x1024 .f32) (v10 : Vec Ideal S1024x1024 .bf16) (v13 : Vec Ideal S1x1024 .f32)
    (r : Fin 256) (h : Fin 1024) :
    k0_pay2 (F := Ideal) v7 v10 v13 (ix2 r h)
      = (∑ h' : Fin 1024, v7 (ix3 (0 : Fin 1) r h') * v10 (ix2 h' h)) + v13 (ix2 (0 : Fin 1) h) := by
  show shapeCast S256x1024 (truncf .bf16 (addf
      (matmul dot_S256x1024_S1024x1024_S256x1024_1_0_0_1_n_n none
        (truncf .bf16 (shapeCast S256x1024 v7 shapeCasts_S1x256x1024_S256x1024) bitsLt_bf16_f32)
        (shapeCast S1024x1024 v10 shapeCasts_S1024x1024_S1024x1024) (constant (F := Ideal) S256x1024 .f32 0x00000000#32))
      (broadcastTo S256x1024 (shapeCast S1x1024 v13 shapeCasts_S1x1024_S1x1024) broadcasts_S1x1024_S256x1024))
      bitsLt_bf16_f32) shapeCasts_S256x1024_S256x1024 (ix2 r h) = _
  rw [shapeCast_self, truncf_apply, addf_apply, matmulA_apply, broadcastTo_1b_ab_apply, shapeCast_self, shapeCast_self]
  simp only [truncf_apply, shapeCast_1ab_ab_apply]

/-- The key tile: the same linear layer with the key weights and bias. -/
theorem pay3_apply (v7 : Vec Ideal S1x256x1024 .f32) (v17 : Vec Ideal S1024x1024 .bf16) (v20 : Vec Ideal S1x1024 .f32)
    (r : Fin 256) (h : Fin 1024) :
    k0_pay3 (F := Ideal) v7 v17 v20 (ix2 r h)
      = (∑ h' : Fin 1024, v7 (ix3 (0 : Fin 1) r h') * v17 (ix2 h' h)) + v20 (ix2 (0 : Fin 1) h) := by
  show shapeCast S256x1024 (truncf .bf16 (addf
      (matmul dot_S256x1024_S1024x1024_S256x1024_1_0_0_1_n_n none
        (truncf .bf16 (shapeCast S256x1024 v7 shapeCasts_S1x256x1024_S256x1024) bitsLt_bf16_f32)
        (shapeCast S1024x1024 v17 shapeCasts_S1024x1024_S1024x1024) (constant (F := Ideal) S256x1024 .f32 0x00000000#32))
      (broadcastTo S256x1024 (shapeCast S1x1024 v20 shapeCasts_S1x1024_S1x1024) broadcasts_S1x1024_S256x1024))
      bitsLt_bf16_f32) shapeCasts_S256x1024_S256x1024 (ix2 r h) = _
  rw [shapeCast_self, truncf_apply, addf_apply, matmulA_apply, broadcastTo_1b_ab_apply, shapeCast_self, shapeCast_self]
  simp only [truncf_apply, shapeCast_1ab_ab_apply]

/-- The output tile: the projected rows plus the [1, 1024] bias repeated down the rows, with a leading unit axis added. -/
theorem pay4_apply (v37 : FVec Ideal S256x1024 .f32) (v38 : Vec Ideal S1x1024 .f32) (r : Fin 256) (o : Fin 1024) :
    k0_pay4 (F := Ideal) v37 v38 (ix3 (0 : Fin 1) r o) = v37 (ix2 r o) + v38 (ix2 (0 : Fin 1) o) := by
  show shapeCast S1x256x1024 (addf v37
      (broadcastTo S256x1024 (shapeCast S1x1024 v38 shapeCasts_S1x1024_S1x1024) broadcasts_S1x1024_S256x1024))
      shapeCasts_S256x1024_S1x256x1024 (ix3 (0 : Fin 1) r o) = _
  rw [shapeCast_ab_1ab_apply, addf_apply, broadcastTo_1b_ab_apply, shapeCast_self]

/-! ## The row statistics of a [256, 2048] tile -/

/-- Inserting the coordinate `k` on the dropped axis of the index (r) gives the index (r, k). -/
theorem lift_tile (r : Fin 256) (k : Fin 2048) : reduces_S256x2048_S256.lift (ix1 r) k = ix2 r k :=
  funext fun a => Fin.ext (by match a with | ⟨0, _⟩ => rfl | ⟨1, _⟩ => rfl)

/-- The row maximum of a tile: the fold of `max` over the row's coordinates, from the word of −∞. -/
theorem rowMaxTile_apply (sc : FVec Ideal S256x2048 .f32) (r : Fin 256) :
    multiReduction (F := Ideal) .maximumf [1] S256 sc 0xFF800000#32 reduces_S256x2048_S256 (.inl rfl) rfl (ix1 r)
      = (Finset.univ : Finset (Fin 2048)).fold max Cert.Attn.negInf (fun j => sc (ix2 r j)) := by
  refine (Ideal.multiReduction_maximumf_single sc 0xFF800000#32 reduces_S256x2048_S256 (.inl rfl) rfl (ix1 r)).trans ?_
  show (Finset.univ : Finset (Fin 2048)).fold max (Ideal.ofBits .f32 0xFF800000#32)
      (sc ∘ reduces_S256x2048_S256.lift (ix1 r)) = _
  exact Finset.fold_congr fun j _ => congrArg sc (lift_tile r j)

/-- The row sum of a tile: the sum over the row's coordinates (the reduction starts from the zero word). -/
theorem rowSumTile_apply (e : FVec Ideal S256x2048 .f32) (r : Fin 256) :
    multiReduction (F := Ideal) .add [1] S256 e 0x00000000#32 reduces_S256x2048_S256 (.inl rfl) rfl (ix1 r)
      = ∑ j : Fin 2048, e (ix2 r j) := by
  refine (Ideal.multiReduction_add_single e 0x00000000#32 reduces_S256x2048_S256 (.inl rfl) rfl (ix1 r)).trans ?_
  exact Finset.sum_congr rfl fun j _ => congrArg e (lift_tile r j)

/-- A row statistic kept as a column and repeated along the row reads, at (r, j), the statistic of row r. -/
theorem keepCol_apply (m : FVec Ideal S256 .f32) (r : Fin 256) (j : Fin 2048) :
    broadcastTo S256x2048 (shapeCast S256x1 m shapeCasts_S256_S256x1) broadcasts_S256x1_S256x2048 (ix2 r j) = m (ix1 r) := by
  rw [Cert.LibKeepdims.broadcastTo_a1_ab_apply, Cert.LibKeepdims.shapeCast_a_a1_apply]

/-! ## The stages of the projected rows -/

/-- The query tile before it is rounded: the tile's rows times the weights plus the bias repeated down the rows. -/
def qTile (v7 : FVec Ideal S1x256x1024 .f32) (v10 : FVec Ideal S1024x1024 .bf16) (v13 : FVec Ideal S1x1024 .f32) :
    FVec Ideal S256x1024 .f32 :=
  addf (matmul dot_S256x1024_S1024x1024_S256x1024_1_0_0_1_n_n none
      (truncf .bf16 (shapeCast S256x1024 v7 shapeCasts_S1x256x1024_S256x1024) bitsLt_bf16_f32)
      (shapeCast S1024x1024 v10 shapeCasts_S1024x1024_S1024x1024) (constant (F := Ideal) S256x1024 .f32 0x00000000#32))
    (broadcastTo S256x1024 (shapeCast S1x1024 v13 shapeCasts_S1x1024_S1x1024) broadcasts_S1x1024_S256x1024)

/-- The scores of a tile of query rows against all key rows, times the splat of the scale word. -/
def scoreTile (q : FVec Ideal S256x1024 .f32) (v18 : FVec Ideal S2048x1024 .bf16) : FVec Ideal S256x2048 .f32 :=
  mulf (matmul dot_S256x1024_S2048x1024_S256x2048_1_1_0_0_n_n none (truncf .bf16 q bitsLt_bf16_f32) v18 (constant (F := Ideal) S256x2048 .f32 0x00000000#32))
    (broadcast S256x2048 (Scalar.ofBits (F := Ideal) .f32 0x3D000000#32))

/-- The exponentials of the scores shifted by their row's maximum. -/
def expTile (sc : FVec Ideal S256x2048 .f32) : FVec Ideal S256x2048 .f32 :=
  exp (subf sc (broadcastTo S256x2048 (shapeCast S256x1
    (multiReduction (F := Ideal) .maximumf [1] S256 sc 0xFF800000#32 reduces_S256x2048_S256 (.inl rfl) rfl)
    shapeCasts_S256_S256x1) broadcasts_S256x1_S256x2048))

/-- The exponentials divided by their row's sum. -/
def weightTile (e : FVec Ideal S256x2048 .f32) : FVec Ideal S256x2048 .f32 :=
  divf e (broadcastTo S256x2048 (shapeCast S256x1
    (multiReduction (F := Ideal) .add [1] S256 e 0x00000000#32 reduces_S256x2048_S256 (.inl rfl) rfl)
    shapeCasts_S256_S256x1) broadcasts_S256x1_S256x2048)

/-- The weights times the value rows. -/
def ctxTile (w : FVec Ideal S256x2048 .f32) (v32 : FVec Ideal S2048x1024 .bf16) : FVec Ideal S256x1024 .f32 :=
  matmul dot_S256x2048_S2048x1024_S256x1024_1_0_0_1_n_n none (truncf .bf16 w bitsLt_bf16_f32) v32 (constant (F := Ideal) S256x1024 .f32 0x00000000#32)

/-- The context rows times the output weights. -/
def outTile (c : FVec Ideal S256x1024 .f32) (v35 : FVec Ideal S1024x1024 .bf16) : FVec Ideal S256x1024 .f32 :=
  matmul dot_S256x1024_S1024x1024_S256x1024_1_0_0_1_n_n none (truncf .bf16 c bitsLt_bf16_f32)
    (shapeCast S1024x1024 v35 shapeCasts_S1024x1024_S1024x1024) (constant (F := Ideal) S256x1024 .f32 0x00000000#32)

/-- The projected rows are the composition of the stages: the printed sequence of operations, regrouped. -/
theorem pay5_eq (v7 : Vec Ideal S1x256x1024 .f32) (v10 : Vec Ideal S1024x1024 .bf16) (v13 : Vec Ideal S1x1024 .f32)
    (v18 : Vec Ideal S2048x1024 .bf16) (v32 : Vec Ideal S2048x1024 .bf16) (v35 : Vec Ideal S1024x1024 .bf16) :
    k0_pay5 (F := Ideal) v7 v10 v13 v18 v32 v35
      = outTile (ctxTile (weightTile (expTile (scoreTile (qTile v7 v10 v13) v18))) v32) v35 := rfl

/-- The query tile at (r, h): the linear layer of row r. -/
theorem qTile_apply (v7 : FVec Ideal S1x256x1024 .f32) (v10 : FVec Ideal S1024x1024 .bf16) (v13 : FVec Ideal S1x1024 .f32)
    (r : Fin 256) (h : Fin 1024) :
    qTile v7 v10 v13 (ix2 r h)
      = (∑ h' : Fin 1024, v7 (ix3 (0 : Fin 1) r h') * v10 (ix2 h' h)) + v13 (ix2 (0 : Fin 1) h) := by
  unfold qTile
  rw [addf_apply, matmulA_apply, broadcastTo_1b_ab_apply, shapeCast_self, shapeCast_self]
  simp only [truncf_apply, shapeCast_1ab_ab_apply]

/-- The scores at (r, j): the scaled score of row r's query vector against key row j. -/
theorem scoreTile_apply (q : FVec Ideal S256x1024 .f32) (v18 : FVec Ideal S2048x1024 .bf16) (r : Fin 256) (j : Fin 2048) :
    scoreTile q v18 (ix2 r j) = Cert.Attn.rowScore (fun h => q (ix2 r h)) (fun j h => v18 (ix2 j h)) j := by
  unfold scoreTile Cert.Attn.rowScore
  rw [mulf_apply, matmulB_apply, broadcast_apply]
  simp only [truncf_apply, Ideal.ofBits_def]

/-- The shifted exponentials at (r, j): the exponential of the entry minus the fold of `max` over row r from the word
    of −∞. -/
theorem expTile_apply (sc : FVec Ideal S256x2048 .f32) (r : Fin 256) (j : Fin 2048) :
    expTile sc (ix2 r j)
      = Ideal.exp (sc (ix2 r j) - (Finset.univ : Finset (Fin 2048)).fold max Cert.Attn.negInf (fun j' => sc (ix2 r j'))) := by
  unfold expTile
  show Ideal.exp (sc (ix2 r j) - broadcastTo S256x2048 (shapeCast S256x1
    (multiReduction (F := Ideal) .maximumf [1] S256 sc 0xFF800000#32 reduces_S256x2048_S256 (.inl rfl) rfl)
    shapeCasts_S256_S256x1) broadcasts_S256x1_S256x2048 (ix2 r j)) = _
  rw [keepCol_apply, rowMaxTile_apply]

/-- The weights at (r, j): an exponential over its row's sum. -/
theorem weightTile_apply (e : FVec Ideal S256x2048 .f32) (r : Fin 256) (j : Fin 2048) :
    weightTile e (ix2 r j) = Ideal.div (e (ix2 r j)) (∑ j' : Fin 2048, e (ix2 r j')) := by
  unfold weightTile
  rw [divf_apply, keepCol_apply, rowSumTile_apply]

/-- The context rows at (r, h). -/
theorem ctxTile_apply (w : FVec Ideal S256x2048 .f32) (v32 : FVec Ideal S2048x1024 .bf16) (r : Fin 256) (h : Fin 1024) :
    ctxTile w v32 (ix2 r h) = ∑ j : Fin 2048, w (ix2 r j) * v32 (ix2 j h) := by
  unfold ctxTile
  rw [matmulC_apply]
  simp only [truncf_apply]

/-- The projected rows at (r, o). -/
theorem outTile_apply (c : FVec Ideal S256x1024 .f32) (v35 : FVec Ideal S1024x1024 .bf16) (r : Fin 256) (o : Fin 1024) :
    outTile c v35 (ix2 r o) = ∑ h : Fin 1024, c (ix2 r h) * v35 (ix2 h o) := by
  unfold outTile
  rw [matmulA_apply, shapeCast_self]
  simp only [truncf_apply]

/-- The context of row r is the one-row attention of the row's query vector against the keys and values. -/
theorem ctx_row (q : FVec Ideal S256x1024 .f32) (v18 v32 : FVec Ideal S2048x1024 .bf16) (r : Fin 256) (h : Fin 1024) :
    ctxTile (weightTile (expTile (scoreTile q v18))) v32 (ix2 r h)
      = Cert.Attn.rowCtx (fun h => q (ix2 r h)) (fun j h => v18 (ix2 j h)) (fun j h => v32 (ix2 j h)) h := by
  simp only [ctxTile_apply, weightTile_apply, expTile_apply, scoreTile_apply, Cert.Attn.rowCtx, Cert.Attn.rowWeight,
    Cert.Attn.rowZ, Cert.Attn.rowExp, Cert.Attn.rowMaxOf]

/-- The projected rows at (r, o): the contraction over the hidden coordinate of row r's attention context with the
    output weights, the row's query vector being its linear layer. -/
theorem pay5_apply (v7 : Vec Ideal S1x256x1024 .f32) (v10 : Vec Ideal S1024x1024 .bf16) (v13 : Vec Ideal S1x1024 .f32)
    (v18 : Vec Ideal S2048x1024 .bf16) (v32 : Vec Ideal S2048x1024 .bf16) (v35 : Vec Ideal S1024x1024 .bf16)
    (r : Fin 256) (o : Fin 1024) :
    k0_pay5 (F := Ideal) v7 v10 v13 v18 v32 v35 (ix2 r o)
      = ∑ h : Fin 1024, Cert.Attn.rowCtx
          (fun h => (∑ h' : Fin 1024, v7 (ix3 (0 : Fin 1) r h') * v10 (ix2 h' h)) + v13 (ix2 (0 : Fin 1) h))
          (fun j h => v18 (ix2 j h)) (fun j h => v32 (ix2 j h)) h * v35 (ix2 h o) := by
  rw [pay5_eq, outTile_apply]
  simp only [ctx_row, qTile_apply]

end Cert.KernelIdeal.AttnPay

end
-- ==== Proof.AttnKernelBlock.lean ====
/-
  What one run of the kernel's body leaves in the output block, as a function of the input blocks.

  A run of the body sees one batch: the input block `x` ([1, 2048, 1024]), the four transposed weight matrices ([in, out])
  and the four biases ([1, 1024]). Its first loop fills the key and value scratch arrays tile by tile; read back whole,
  they are `K j h = Σ_h' x j h' · Wk h' h + bk h` and the same with `Wv`, `bv`: eight tiles of one function, covering all
  2048 rows. Its second loop stores, for the tile of rows 256·k …, the attention of each row's query vector
  `q s h = Σ_h' x s h' · Wq h' h + bq h` against those `K`, `V`, projected by `Wo` plus `bo`: again eight tiles of one
  function of the row index, covering the block. So the block the body leaves is the one-row attention function
  evaluated at every row.
-/
import proofs.«176141_j53412213293575_2_alg».proof.Proof.KernelIdealFrame
import proofs.«176141_j53412213293575_2_alg».proof.Proof.AttnKernelLoops
import proofs.«176141_j53412213293575_2_alg».proof.Proof.AttnKernelPayload
import Idealize.ShloMosaic.Lib.ValueIdx
import Idealize.ShloMosaic.Lib.Pipeline.Value

set_option maxRecDepth 16384
noncomputable section

namespace Cert.KernelIdeal.AttnK

open Cert.KernelIdeal Cert.KernelIdeal.Gen Cert.KernelIdeal.GenP Cert.KernelIdeal.AttnPay
open Idealize.ShloMosaic Idealize.ShloMosaic.ValueIdx Idealize.ShloMosaic.TcCoe Idealize.ShloMosaic.Tactic
open Idealize.SL Idealize.SL.Sem

/-- Each loop makes eight trips. -/
theorem trips1 : k0_t1_loop.trips = 8 := by decide +kernel
theorem trips2 : k0_t2_loop.trips = 8 := by decide +kernel

/-- Row `r` of the tile of trip `k` is row 256·k + r of the block. -/
def rowOf1 (k : Fin k0_t1_loop.trips) (r : Fin 256) : Fin 2048 :=
  ⟨256 * k.val + r.val, by have h1 : k.val < 8 := lt_of_lt_of_eq k.isLt trips1; have := r.isLt; omega⟩
def rowOf2 (k : Fin k0_t2_loop.trips) (r : Fin 256) : Fin 2048 :=
  ⟨256 * k.val + r.val, by have h1 : k.val < 8 := lt_of_lt_of_eq k.isLt trips2; have := r.isLt; omega⟩

theorem zero2 : (![0, 0] : Fin 2 → Nat) = fun _ => 0 := funext fun a => by fin_cases a <;> rfl

/-- A linear layer on a [1, 2048, 1024] block: row `s` against column `h` of a transposed weight, plus the bias. -/
def blkLin (x : Vec Ideal S1x2048x1024 .f32) (w : Vec Ideal S1024x1024 .bf16) (b : Vec Ideal S1x1024 .f32)
    (s : Fin 2048) (h : Fin 1024) : EReal :=
  (∑ h' : Fin 1024, x (ix3 (0 : Fin 1) s h') * w (ix2 h' h)) + b (ix2 (0 : Fin 1) h)

/-- The scratch array a linear layer of the whole block fills. -/
def blkLinArr (x : Vec Ideal S1x2048x1024 .f32) (w : Vec Ideal S1024x1024 .bf16) (b : Vec Ideal S1x1024 .f32) :
    Vec Ideal S2048x1024 .bf16 := fun y => blkLin x w b (y 0) (y 1)

/-- A load of the block through the first loop's trip-`k` rectangle reads rows 256·k …. -/
theorem ld_rows1 (X : Vec Ideal S1x2048x1024 .f32) (k : Fin k0_t1_loop.trips) (r : Fin 256) (h : Fin 1024) :
    View.ld (Val := Elt Ideal) (e' := .f32) X (Rect.unit (s := S1x2048x1024) (k0_off1 k) S1x256x1024.size (k0_off1_inb k)) (ix3 (0 : Fin 1) r h)
      = X (ix3 (0 : Fin 1) (rowOf1 k r) h) := by
  show X ((Rect.unit (s := S1x2048x1024) (k0_off1 k) S1x256x1024.size (k0_off1_inb k)).idx (ix3 (0 : Fin 1) r h)) = _
  congr 1
  funext a
  apply Fin.ext
  have e := k0_off1_eq k
  match a with
  | ⟨0, _⟩ => show k0_off1 k 0 + 1 * 0 = 0; rw [e]; rfl
  | ⟨1, _⟩ => show k0_off1 k 1 + 1 * r.val = 256 * k.val + r.val; rw [e]; show 256 * k.val + 1 * r.val = _; omega
  | ⟨2, _⟩ => show k0_off1 k 2 + 1 * h.val = h.val; rw [e]; show 0 + 1 * h.val = _; omega

/-- … and through the second loop's. -/
theorem ld_rows2 (X : Vec Ideal S1x2048x1024 .f32) (k : Fin k0_t2_loop.trips) (r : Fin 256) (h : Fin 1024) :
    View.ld (Val := Elt Ideal) (e' := .f32) X (Rect.unit (s := S1x2048x1024) (k0_off3 k) S1x256x1024.size (k0_off3_inb k)) (ix3 (0 : Fin 1) r h)
      = X (ix3 (0 : Fin 1) (rowOf2 k r) h) := by
  show X ((Rect.unit (s := S1x2048x1024) (k0_off3 k) S1x256x1024.size (k0_off3_inb k)).idx (ix3 (0 : Fin 1) r h)) = _
  congr 1
  funext a
  apply Fin.ext
  have e := k0_off3_eq k
  match a with
  | ⟨0, _⟩ => show k0_off3 k 0 + 1 * 0 = 0; rw [e]; rfl
  | ⟨1, _⟩ => show k0_off3 k 1 + 1 * r.val = 256 * k.val + r.val; rw [e]; show 256 * k.val + 1 * r.val = _; omega
  | ⟨2, _⟩ => show k0_off3 k 2 + 1 * h.val = h.val; rw [e]; show 0 + 1 * h.val = _; omega

/-- The first loop's trip-`k` store rectangle places local row `r` at row 256·k + r of the scratch array. -/
theorem emb_rows1 (k : Fin k0_t1_loop.trips) (r : Fin 256) (h : Fin 1024) :
    (Rect.unit (s := S2048x1024) (k0_off2 k) S256x1024.size (k0_off2_inb k)).emb (ix2 r h) = ix2 (rowOf1 k r) h := by
  funext a
  apply Fin.ext
  have e := k0_off2_eq k
  match a with
  | ⟨0, _⟩ => show k0_off2 k 0 + 1 * r.val = 256 * k.val + r.val; rw [e]; show 256 * k.val + 1 * r.val = _; omega
  | ⟨1, _⟩ => show k0_off2 k 1 + 1 * h.val = h.val; rw [e]; show 0 + 1 * h.val = _; omega

/-- The second loop's trip-`k` store rectangle places local row `r` at row 256·k + r of the output block. -/
theorem emb_rows2 (k : Fin k0_t2_loop.trips) (r : Fin 256) (o : Fin 1024) :
    (Rect.unit (s := S1x2048x1024) (k0_off3 k) S1x256x1024.size (k0_off3_inb k)).emb (ix3 (0 : Fin 1) r o)
      = ix3 (0 : Fin 1) (rowOf2 k r) o := by
  funext a
  apply Fin.ext
  have e := k0_off3_eq k
  match a with
  | ⟨0, _⟩ => show k0_off3 k 0 + 1 * 0 = 0; rw [e]; rfl
  | ⟨1, _⟩ => show k0_off3 k 1 + 1 * r.val = 256 * k.val + r.val; rw [e]; show 256 * k.val + 1 * r.val = _; omega
  | ⟨2, _⟩ => show k0_off3 k 2 + 1 * o.val = o.val; rw [e]; show 0 + 1 * o.val = _; omega

/-! ## What the body's loads read -/

/-- A whole matrix staging buffer holding `x`, loaded whole, reads `x`. -/
theorem readAt_mat (a : Memref sig .tc .vmem S1024x1024 .bf16) (ha : a.IsWhole) (x : Vec Ideal S1024x1024 .bf16) :
    View.readAt (Elt Ideal) a.view (Rect.unit (s := S1024x1024) ![0, 0] S1024x1024.size inb_S1024x1024_S1024x1024_0_0).toLoadRect (ha.unread x) = x := by
  rw [View.readAt_eq_ld, ha.read_unread, View.ld_unit_zero zero2]

/-- A whole bias-row staging buffer holding `x`, loaded whole, reads `x`. -/
theorem readAt_row (a : Memref sig .tc .vmem S1x1024 .f32) (ha : a.IsWhole) (x : Vec Ideal S1x1024 .f32) :
    View.readAt (Elt Ideal) a.view (Rect.unit (s := S1x1024) ![0, 0] S1x1024.size inb_S1x1024_S1x1024_0_0).toLoadRect (ha.unread x) = x := by
  rw [View.readAt_eq_ld, ha.read_unread, View.ld_unit_zero zero2]

/-- A whole scratch array holding `x`, loaded whole, reads `x`. -/
theorem readAt_scr (a : Memref sig .tc .vmem S2048x1024 .bf16) (ha : a.IsWhole) (x : Vec Ideal S2048x1024 .bf16) :
    View.readAt (Elt Ideal) a.view (Rect.unit (s := S2048x1024) ![0, 0] S2048x1024.size inb_S2048x1024_S2048x1024_0_0).toLoadRect (ha.unread x) = x := by
  rw [View.readAt_eq_ld, ha.read_unread, View.ld_unit_zero zero2]

/-- The input block's staging buffer holding `x`, loaded through the first loop's trip-`k` rectangle. -/
theorem readAt_rows1 (a : Memref sig .tc .vmem S1x2048x1024 .f32) (ha : a.IsWhole) (x : Vec Ideal S1x2048x1024 .f32) (k : Fin k0_t1_loop.trips) :
    View.readAt (Elt Ideal) a.view (Rect.unit (s := S1x2048x1024) (k0_off1 k) S1x256x1024.size (k0_off1_inb k)).toLoadRect (ha.unread x)
      = View.ld (Val := Elt Ideal) (e' := .f32) x (Rect.unit (s := S1x2048x1024) (k0_off1 k) S1x256x1024.size (k0_off1_inb k)) := by
  rw [View.readAt_eq_ld, ha.read_unread]

/-- … and through the second loop's. -/
theorem readAt_rows2 (a : Memref sig .tc .vmem S1x2048x1024 .f32) (ha : a.IsWhole) (x : Vec Ideal S1x2048x1024 .f32) (k : Fin k0_t2_loop.trips) :
    View.readAt (Elt Ideal) a.view (Rect.unit (s := S1x2048x1024) (k0_off3 k) S1x256x1024.size (k0_off3_inb k)).toLoadRect (ha.unread x)
      = View.ld (Val := Elt Ideal) (e' := .f32) x (Rect.unit (s := S1x2048x1024) (k0_off3 k) S1x256x1024.size (k0_off3_inb k)) := by
  rw [View.readAt_eq_ld, ha.read_unread]

/-- A tile of a linear layer: the payload's sum over the loaded rows is the layer at row 256·k + r of the block. -/
theorem lin_tile1 (x : Vec Ideal S1x2048x1024 .f32) (w : Vec Ideal S1024x1024 .bf16) (b : Vec Ideal S1x1024 .f32)
    (k : Fin k0_t1_loop.trips) (r : Fin 256) (h : Fin 1024) :
    (∑ h' : Fin 1024, View.ld (Val := Elt Ideal) (e' := .f32) x (Rect.unit (s := S1x2048x1024) (k0_off1 k) S1x256x1024.size (k0_off1_inb k)) (ix3 (0 : Fin 1) r h') * w (ix2 h' h))
        + b (ix2 (0 : Fin 1) h) = blkLin x w b (rowOf1 k r) h := by
  unfold blkLin
  refine congrArg₂ (· + ·) (Finset.sum_congr rfl fun h' _ => ?_) rfl
  rw [ld_rows1]

theorem lin_tile2 (x : Vec Ideal S1x2048x1024 .f32) (w : Vec Ideal S1024x1024 .bf16) (b : Vec Ideal S1x1024 .f32)
    (k : Fin k0_t2_loop.trips) (r : Fin 256) (h : Fin 1024) :
    (∑ h' : Fin 1024, View.ld (Val := Elt Ideal) (e' := .f32) x (Rect.unit (s := S1x2048x1024) (k0_off3 k) S1x256x1024.size (k0_off3_inb k)) (ix3 (0 : Fin 1) r h') * w (ix2 h' h))
        + b (ix2 (0 : Fin 1) h) = blkLin x w b (rowOf2 k r) h := by
  unfold blkLin
  refine congrArg₂ (· + ·) (Finset.sum_congr rfl fun h' _ => ?_) rfl
  rw [ld_rows2]

/-! ## The key and value scratch arrays after the first loop -/

section Scratch
variable (c : Dev nD) (i : grid0.Coords) (arg1 : Memref sig .tc .vmem S1x2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (x0 : Vec Ideal S1x2048x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32)

/-- The key scratch, read back whole after the first loop, is the key layer of the block: every stored piece is a
    tile of it (its payload read at an index), and the eight tiles cover the array. -/
theorem canon_keys :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips).1 = blkLinArr x0 x3 x4 := by
  funext y
  refine View.canon_apply_of_pieces (blkLinArr x0 x3 x4) _ (fun p hp x => ?_) y
    (View.cover_of_tiledL (s := S2048x1024) _ S256x1024.size (by sl_kernel_rfl) y)
  obtain ⟨k, -, hk⟩ := mem_keys_before (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips le_rfl p hp
  rw [(trip1_pieces (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k).1] at hk
  obtain rfl := List.mem_singleton.mp hk
  obtain ⟨r, h, rfl⟩ : ∃ (r : Fin 256) (h : Fin 1024), x = ix2 r h := ⟨x 0, x 1, eq_ix2 x⟩
  show k0_pay2 (F := Ideal) _ _ _ (ix2 r h) = blkLinArr x0 x3 x4 ((Rect.unit (s := S2048x1024) (k0_off2 k) S256x1024.size (k0_off2_inb k)).emb (ix2 r h))
  rw [readAt_rows1, readAt_mat, readAt_row, emb_rows1, pay2_apply, lin_tile1]
  rfl

/-- The value scratch likewise is the value layer of the block. -/
theorem canon_values :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips).2 = blkLinArr x0 x5 x6 := by
  funext y
  refine View.canon_apply_of_pieces (blkLinArr x0 x5 x6) _ (fun p hp x => ?_) y
    (View.cover_of_tiledL (s := S2048x1024) _ S256x1024.size (by sl_kernel_rfl) y)
  obtain ⟨k, -, hk⟩ := mem_values_before (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips le_rfl p hp
  rw [(trip1_pieces (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k).2] at hk
  obtain rfl := List.mem_singleton.mp hk
  obtain ⟨r, h, rfl⟩ : ∃ (r : Fin 256) (h : Fin 1024), x = ix2 r h := ⟨x 0, x 1, eq_ix2 x⟩
  show k0_pay3 (F := Ideal) _ _ _ (ix2 r h) = blkLinArr x0 x5 x6 ((Rect.unit (s := S2048x1024) (k0_off2 k) S256x1024.size (k0_off2_inb k)).emb (ix2 r h))
  rw [readAt_rows1, readAt_mat, readAt_row, emb_rows1, pay3_apply, lin_tile1]
  rfl

end Scratch

/-! ## The function the output block is a tile-by-tile copy of -/

/-- The one-row attention function at every row of a batch's blocks: row `y 1`'s query vector against the block's
    keys and values, projected by the transposed output weight, plus the output bias. -/
def blkOut (x0 : Vec Ideal S1x2048x1024 .f32) (x1 : Vec Ideal S1024x1024 .bf16) (x2 : Vec Ideal S1x1024 .f32)
    (x3 : Vec Ideal S1024x1024 .bf16) (x4 : Vec Ideal S1x1024 .f32) (x5 : Vec Ideal S1024x1024 .bf16) (x6 : Vec Ideal S1x1024 .f32)
    (x7 : Vec Ideal S1024x1024 .bf16) (x8 : Vec Ideal S1x1024 .f32) : Vec Ideal S1x2048x1024 .f32 := fun y =>
  Cert.Attn.rowOut (blkLin x0 x1 x2 (y 1)) (blkLin x0 x3 x4) (blkLin x0 x5 x6)
    (fun o h => x7 (ix2 h o)) (fun o => x8 (ix2 (0 : Fin 1) o)) (y 2)

theorem blkOut_ix3 (x0 : Vec Ideal S1x2048x1024 .f32) (x1 : Vec Ideal S1024x1024 .bf16) (x2 : Vec Ideal S1x1024 .f32)
    (x3 : Vec Ideal S1024x1024 .bf16) (x4 : Vec Ideal S1x1024 .f32) (x5 : Vec Ideal S1024x1024 .bf16) (x6 : Vec Ideal S1x1024 .f32)
    (x7 : Vec Ideal S1024x1024 .bf16) (x8 : Vec Ideal S1x1024 .f32) (u : Fin 1) (s : Fin 2048) (o : Fin 1024) :
    blkOut x0 x1 x2 x3 x4 x5 x6 x7 x8 (ix3 u s o)
      = Cert.Attn.rowOut (blkLin x0 x1 x2 s) (blkLin x0 x3 x4) (blkLin x0 x5 x6)
          (fun o h => x7 (ix2 h o)) (fun o => x8 (ix2 (0 : Fin 1) o)) o := rfl

end Cert.KernelIdeal.AttnK

end
-- ==== Proof.AttnKernelOut.lean ====
/-
  The output block one run of the kernel's body leaves is the one-row attention function at every row.

  The run's output pieces are the second loop's eight stores. The store of trip `k` carries, at local row `r` and column
  `o`, the projected attention of the query vector of row 256·k + r of the block against the key and value scratch
  arrays, which after the first loop are the key and value layers of the whole block; and its rectangle places that
  local row at row 256·k + r of the output block. So every piece is a tile of one function of the block's index, the
  tiles cover the block, and the block read back is that function.
-/
import proofs.«176141_j53412213293575_2_alg».proof.Proof.AttnKernelBlock

set_option maxRecDepth 16384
noncomputable section

namespace Cert.KernelIdeal.AttnK

open Cert.KernelIdeal Cert.KernelIdeal.Gen Cert.KernelIdeal.GenP Cert.KernelIdeal.AttnPay
open Idealize.ShloMosaic Idealize.ShloMosaic.ValueIdx Idealize.ShloMosaic.TcCoe Idealize.ShloMosaic.Tactic
open Idealize.SL Idealize.SL.Sem

section Out
variable (c : Dev nD) (i : grid0.Coords) (arg1 : Memref sig .tc .vmem S1x2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole) (x0 : Vec Ideal S1x2048x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32)

/-- The pieces the run leaves in the output block are the second loop's, over the inputs' contents and the two scratch
    arrays as the first loop left them. -/
theorem run_pieces :
    (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1
      = pb_k0_t2 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg8.unread x7) (harg9.unread x8)
      (harg11.unread (View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips).1))
      (harg12.unread (View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips).2)) k0_t2_loop.trips := rfl

/-- The output block after the body: the one-row attention function at every row of the point's blocks. -/
theorem out_block :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = blkOut x0 x1 x2 x3 x4 x5 x6 x7 x8 := by
  unfold out0_A_9
  rw [View.read_writes_junk_eq_canon, run_pieces]
  funext y
  refine View.canon_apply_of_pieces (blkOut x0 x1 x2 x3 x4 x5 x6 x7 x8) _ (fun p hp x => ?_) y
    (View.cover_of_tiledL (s := S1x2048x1024) _ S1x256x1024.size (by sl_kernel_rfl) y)
  obtain ⟨k, -, hk⟩ := mem_out_before (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg8.unread x7) (harg9.unread x8)
      (harg11.unread (View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips).1))
      (harg12.unread (View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips).2)) k0_t2_loop.trips le_rfl p hp
  rw [trip2_pieces (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg8.unread x7) (harg9.unread x8)
      (harg11.unread (View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips).1))
      (harg12.unread (View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg4.unread x3) (harg5.unread x4) (harg6.unread x5) (harg7.unread x6) k0_t1_loop.trips).2)) k] at hk
  obtain rfl := List.mem_singleton.mp hk
  obtain ⟨u, r, o, rfl⟩ : ∃ (u : Fin 1) (r : Fin 256) (o : Fin 1024), x = ix3 u r o := ⟨x 0, x 1, x 2, eq_ix3 x⟩
  obtain rfl : u = 0 := Subsingleton.elim _ _
  show k0_pay4 (F := Ideal) (k0_pay5 (F := Ideal) _ _ _ _ _ _) _ (ix3 (0 : Fin 1) r o)
    = blkOut x0 x1 x2 x3 x4 x5 x6 x7 x8 ((Rect.unit (s := S1x2048x1024) (k0_off3 k) S1x256x1024.size (k0_off3_inb k)).emb (ix3 (0 : Fin 1) r o))
  rw [readAt_rows2, readAt_mat, readAt_row, readAt_scr, readAt_scr, readAt_mat, readAt_row, canon_keys, canon_values,
    emb_rows2, pay4_apply, pay5_apply, blkOut_ix3]
  rw [show (fun h => (∑ h' : Fin 1024, View.ld (Val := Elt Ideal) (e' := .f32) x0 (Rect.unit (s := S1x2048x1024) (k0_off3 k) S1x256x1024.size (k0_off3_inb k)) (ix3 (0 : Fin 1) r h') * x1 (ix2 h' h)) + x2 (ix2 (0 : Fin 1) h))
      = blkLin x0 x1 x2 (rowOf2 k r) from funext fun h => lin_tile2 x0 x1 x2 k r h]
  rfl

end Out

end Cert.KernelIdeal.AttnK

end
-- ==== Proof.AttnKernelHost.lean ====
/-
  What the region finds in each window, read at coordinates, on the extended reals.

  Before its one region the program transposes each of the four [1024, 1024] weight matrices (stored [out, in]) and
  rounds it to the narrow format, which is the identity on the extended reals, and reshapes each of the four [1024]
  biases to a [1, 1024] row. So the region finds
    the transposed weights      (h, o) ↦ W(o, h)
    the bias rows               (0, o) ↦ b(o)
  and each of the eight windows that stage these arrays whole hands the body the whole array at every grid point.
  The window of the input stages one batch per grid point: at point t its block is (0, s, h) ↦ x(t, s, h).
-/
import proofs.«176141_j53412213293575_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.AttnHost

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-! ## The arrays the host operations wrote -/

/-- The query weights as the region finds them: the launched matrix transposed, then rounded (the identity). -/
theorem V_v1 : (V m c main_v1 : S1024x1024.Idx → EReal)
    = truncf .bf16 (transpose S1024x1024 [1, 0] (m ((c : Thread nD τ).loc main_arg1) : FVec Ideal S1024x1024 .f32)
        transposes_S1024x1024_S1024x1024_1_0 : FVec Ideal S1024x1024 .f32) bitsLt_bf16_f32 := by
  dsimp only [Gen.V, Gen.hostOps0]; after_results

/-- The transposed query weights at (h, o) are the launched weights at (o, h). -/
theorem V_v1_apply (h o : Fin 1024) : V m c main_v1 (ix2 h o) = m ((c : Thread nD τ).loc main_arg1) (ix2 o h) :=
  (congrFun (V_v1 m c) (ix2 h o)).trans (by rw [truncf_apply, transpose_ix2_apply])

/-- The key weights as the region finds them: the launched matrix transposed, then rounded (the identity). -/
theorem V_v3 : (V m c main_v3 : S1024x1024.Idx → EReal)
    = truncf .bf16 (transpose S1024x1024 [1, 0] (m ((c : Thread nD τ).loc main_arg3) : FVec Ideal S1024x1024 .f32)
        transposes_S1024x1024_S1024x1024_1_0 : FVec Ideal S1024x1024 .f32) bitsLt_bf16_f32 := by
  dsimp only [Gen.V, Gen.hostOps0]; after_results

/-- The transposed key weights at (h, o) are the launched weights at (o, h). -/
theorem V_v3_apply (h o : Fin 1024) : V m c main_v3 (ix2 h o) = m ((c : Thread nD τ).loc main_arg3) (ix2 o h) :=
  (congrFun (V_v3 m c) (ix2 h o)).trans (by rw [truncf_apply, transpose_ix2_apply])

/-- The value weights as the region finds them: the launched matrix transposed, then rounded (the identity). -/
theorem V_v5 : (V m c main_v5 : S1024x1024.Idx → EReal)
    = truncf .bf16 (transpose S1024x1024 [1, 0] (m ((c : Thread nD τ).loc main_arg5) : FVec Ideal S1024x1024 .f32)
        transposes_S1024x1024_S1024x1024_1_0 : FVec Ideal S1024x1024 .f32) bitsLt_bf16_f32 := by
  dsimp only [Gen.V, Gen.hostOps0]; after_results

/-- The transposed value weights at (h, o) are the launched weights at (o, h). -/
theorem V_v5_apply (h o : Fin 1024) : V m c main_v5 (ix2 h o) = m ((c : Thread nD τ).loc main_arg5) (ix2 o h) :=
  (congrFun (V_v5 m c) (ix2 h o)).trans (by rw [truncf_apply, transpose_ix2_apply])

/-- The output weights as the region finds them: the launched matrix transposed, then rounded (the identity). -/
theorem V_v7 : (V m c main_v7 : S1024x1024.Idx → EReal)
    = truncf .bf16 (transpose S1024x1024 [1, 0] (m ((c : Thread nD τ).loc main_arg7) : FVec Ideal S1024x1024 .f32)
        transposes_S1024x1024_S1024x1024_1_0 : FVec Ideal S1024x1024 .f32) bitsLt_bf16_f32 := by
  dsimp only [Gen.V, Gen.hostOps0]; after_results

/-- The transposed output weights at (h, o) are the launched weights at (o, h). -/
theorem V_v7_apply (h o : Fin 1024) : V m c main_v7 (ix2 h o) = m ((c : Thread nD τ).loc main_arg7) (ix2 o h) :=
  (congrFun (V_v7 m c) (ix2 h o)).trans (by rw [truncf_apply, transpose_ix2_apply])

/-- The query bias as the region finds it: the launched vector cast to a [1, 1024] row. -/
theorem V_v8 : (V m c main_v8 : S1x1024.Idx → EReal)
    = shapeCast S1x1024 (m ((c : Thread nD τ).loc main_arg2) : FVec Ideal S1024 .f32) shapeCasts_S1024_S1x1024 := by
  dsimp only [Gen.V, Gen.hostOps0]; after_results; rfl

/-- The query bias row at (0, o) is the launched bias at o. -/
theorem V_v8_apply (o : Fin 1024) : V m c main_v8 (ix2 (0 : Fin 1) o) = m ((c : Thread nD τ).loc main_arg2) (ix1 o) :=
  (congrFun (V_v8 m c) (ix2 (0 : Fin 1) o)).trans (by rw [shapeCast_a_1a_apply])

/-- The key bias as the region finds it: the launched vector cast to a [1, 1024] row. -/
theorem V_v9 : (V m c main_v9 : S1x1024.Idx → EReal)
    = shapeCast S1x1024 (m ((c : Thread nD τ).loc main_arg4) : FVec Ideal S1024 .f32) shapeCasts_S1024_S1x1024 := by
  dsimp only [Gen.V, Gen.hostOps0]; after_results; rfl

/-- The key bias row at (0, o) is the launched bias at o. -/
theorem V_v9_apply (o : Fin 1024) : V m c main_v9 (ix2 (0 : Fin 1) o) = m ((c : Thread nD τ).loc main_arg4) (ix1 o) :=
  (congrFun (V_v9 m c) (ix2 (0 : Fin 1) o)).trans (by rw [shapeCast_a_1a_apply])

/-- The value bias as the region finds it: the launched vector cast to a [1, 1024] row. -/
theorem V_v10 : (V m c main_v10 : S1x1024.Idx → EReal)
    = shapeCast S1x1024 (m ((c : Thread nD τ).loc main_arg6) : FVec Ideal S1024 .f32) shapeCasts_S1024_S1x1024 := by
  dsimp only [Gen.V, Gen.hostOps0]; after_results; rfl

/-- The value bias row at (0, o) is the launched bias at o. -/
theorem V_v10_apply (o : Fin 1024) : V m c main_v10 (ix2 (0 : Fin 1) o) = m ((c : Thread nD τ).loc main_arg6) (ix1 o) :=
  (congrFun (V_v10 m c) (ix2 (0 : Fin 1) o)).trans (by rw [shapeCast_a_1a_apply])

/-- The output bias as the region finds it: the launched vector cast to a [1, 1024] row. -/
theorem V_v11 : (V m c main_v11 : S1x1024.Idx → EReal)
    = shapeCast S1x1024 (m ((c : Thread nD τ).loc main_arg8) : FVec Ideal S1024 .f32) shapeCasts_S1024_S1x1024 := by
  dsimp only [Gen.V, Gen.hostOps0]; after_results; rfl

/-- The output bias row at (0, o) is the launched bias at o. -/
theorem V_v11_apply (o : Fin 1024) : V m c main_v11 (ix2 (0 : Fin 1) o) = m ((c : Thread nD τ).loc main_arg8) (ix1 o) :=
  (congrFun (V_v11 m c) (ix2 (0 : Fin 1) o)).trans (by rw [shapeCast_a_1a_apply])

/-! ## The blocks of the windows that stage an array whole -/

/-- The index maps of the whole-array windows, decided over the grid: every block index is 0 at every point. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Window 1's block at any point, read at (h, o), is the array it stages there: the block index is 0 on both axes. -/
theorem iblk1_V (t : Fin cfg0.N) (h o : Fin 1024) :
    (iblk m c 1 t : Vec Ideal S1024x1024 .bf16) (ix2 h o) = V m c main_v1 (ix2 h o) := by
  obtain ⟨e0, e1⟩ := (idx_whole t).1
  unfold iblk
  rw [View.read_apply]
  show V m c main_v1 _ = V m c main_v1 _
  congr 1
  funext a
  apply Fin.ext
  match a with
  | ⟨0, _⟩ => show win0_1.index t (0 : Fin 2) * 1024 + 1 * h.val = h.val; rw [e0]; omega
  | ⟨1, _⟩ => show win0_1.index t (1 : Fin 2) * 1024 + 1 * o.val = o.val; rw [e1]; omega

/-- So the body finds, in window 1 at (h, o), the launched query weights at (o, h). -/
theorem iblk1_apply (t : Fin cfg0.N) (h o : Fin 1024) :
    (iblk m c 1 t : Vec Ideal S1024x1024 .bf16) (ix2 h o) = m ((c : Thread nD τ).loc main_arg1) (ix2 o h) :=
  (iblk1_V m c t h o).trans (V_v1_apply m c h o)

/-- Window 2's block at any point, read at (0, o), is the array it stages there: the block index is 0 on both axes. -/
theorem iblk2_V (t : Fin cfg0.N) (o : Fin 1024) :
    (iblk m c 2 t : Vec Ideal S1x1024 .f32) (ix2 (0 : Fin 1) o) = V m c main_v8 (ix2 (0 : Fin 1) o) := by
  obtain ⟨e0, e1⟩ := (idx_whole t).2.1
  unfold iblk
  rw [View.read_apply]
  show V m c main_v8 _ = V m c main_v8 _
  congr 1
  funext a
  apply Fin.ext
  match a with
  | ⟨0, _⟩ => show win0_2.index t (0 : Fin 2) * 1 + 1 * (0 : Fin 1).val = (0 : Fin 1).val; rw [e0]; omega
  | ⟨1, _⟩ => show win0_2.index t (1 : Fin 2) * 1024 + 1 * o.val = o.val; rw [e1]; omega

/-- So the body finds, in window 2 at (0, o), the launched query bias at o. -/
theorem iblk2_apply (t : Fin cfg0.N) (o : Fin 1024) :
    (iblk m c 2 t : Vec Ideal S1x1024 .f32) (ix2 (0 : Fin 1) o) = m ((c : Thread nD τ).loc main_arg2) (ix1 o) :=
  (iblk2_V m c t o).trans (V_v8_apply m c o)

/-- Window 3's block at any point, read at (h, o), is the array it stages there: the block index is 0 on both axes. -/
theorem iblk3_V (t : Fin cfg0.N) (h o : Fin 1024) :
    (iblk m c 3 t : Vec Ideal S1024x1024 .bf16) (ix2 h o) = V m c main_v3 (ix2 h o) := by
  obtain ⟨e0, e1⟩ := (idx_whole t).2.2.1
  unfold iblk
  rw [View.read_apply]
  show V m c main_v3 _ = V m c main_v3 _
  congr 1
  funext a
  apply Fin.ext
  match a with
  | ⟨0, _⟩ => show win0_3.index t (0 : Fin 2) * 1024 + 1 * h.val = h.val; rw [e0]; omega
  | ⟨1, _⟩ => show win0_3.index t (1 : Fin 2) * 1024 + 1 * o.val = o.val; rw [e1]; omega

/-- So the body finds, in window 3 at (h, o), the launched key weights at (o, h). -/
theorem iblk3_apply (t : Fin cfg0.N) (h o : Fin 1024) :
    (iblk m c 3 t : Vec Ideal S1024x1024 .bf16) (ix2 h o) = m ((c : Thread nD τ).loc main_arg3) (ix2 o h) :=
  (iblk3_V m c t h o).trans (V_v3_apply m c h o)

/-- Window 4's block at any point, read at (0, o), is the array it stages there: the block index is 0 on both axes. -/
theorem iblk4_V (t : Fin cfg0.N) (o : Fin 1024) :
    (iblk m c 4 t : Vec Ideal S1x1024 .f32) (ix2 (0 : Fin 1) o) = V m c main_v9 (ix2 (0 : Fin 1) o) := by
  obtain ⟨e0, e1⟩ := (idx_whole t).2.2.2.1
  unfold iblk
  rw [View.read_apply]
  show V m c main_v9 _ = V m c main_v9 _
  congr 1
  funext a
  apply Fin.ext
  match a with
  | ⟨0, _⟩ => show win0_4.index t (0 : Fin 2) * 1 + 1 * (0 : Fin 1).val = (0 : Fin 1).val; rw [e0]; omega
  | ⟨1, _⟩ => show win0_4.index t (1 : Fin 2) * 1024 + 1 * o.val = o.val; rw [e1]; omega

/-- So the body finds, in window 4 at (0, o), the launched key bias at o. -/
theorem iblk4_apply (t : Fin cfg0.N) (o : Fin 1024) :
    (iblk m c 4 t : Vec Ideal S1x1024 .f32) (ix2 (0 : Fin 1) o) = m ((c : Thread nD τ).loc main_arg4) (ix1 o) :=
  (iblk4_V m c t o).trans (V_v9_apply m c o)

/-- Window 5's block at any point, read at (h, o), is the array it stages there: the block index is 0 on both axes. -/
theorem iblk5_V (t : Fin cfg0.N) (h o : Fin 1024) :
    (iblk m c 5 t : Vec Ideal S1024x1024 .bf16) (ix2 h o) = V m c main_v5 (ix2 h o) := by
  obtain ⟨e0, e1⟩ := (idx_whole t).2.2.2.2.1
  unfold iblk
  rw [View.read_apply]
  show V m c main_v5 _ = V m c main_v5 _
  congr 1
  funext a
  apply Fin.ext
  match a with
  | ⟨0, _⟩ => show win0_5.index t (0 : Fin 2) * 1024 + 1 * h.val = h.val; rw [e0]; omega
  | ⟨1, _⟩ => show win0_5.index t (1 : Fin 2) * 1024 + 1 * o.val = o.val; rw [e1]; omega

/-- So the body finds, in window 5 at (h, o), the launched value weights at (o, h). -/
theorem iblk5_apply (t : Fin cfg0.N) (h o : Fin 1024) :
    (iblk m c 5 t : Vec Ideal S1024x1024 .bf16) (ix2 h o) = m ((c : Thread nD τ).loc main_arg5) (ix2 o h) :=
  (iblk5_V m c t h o).trans (V_v5_apply m c h o)

/-- Window 6's block at any point, read at (0, o), is the array it stages there: the block index is 0 on both axes. -/
theorem iblk6_V (t : Fin cfg0.N) (o : Fin 1024) :
    (iblk m c 6 t : Vec Ideal S1x1024 .f32) (ix2 (0 : Fin 1) o) = V m c main_v10 (ix2 (0 : Fin 1) o) := by
  obtain ⟨e0, e1⟩ := (idx_whole t).2.2.2.2.2.1
  unfold iblk
  rw [View.read_apply]
  show V m c main_v10 _ = V m c main_v10 _
  congr 1
  funext a
  apply Fin.ext
  match a with
  | ⟨0, _⟩ => show win0_6.index t (0 : Fin 2) * 1 + 1 * (0 : Fin 1).val = (0 : Fin 1).val; rw [e0]; omega
  | ⟨1, _⟩ => show win0_6.index t (1 : Fin 2) * 1024 + 1 * o.val = o.val; rw [e1]; omega

/-- So the body finds, in window 6 at (0, o), the launched value bias at o. -/
theorem iblk6_apply (t : Fin cfg0.N) (o : Fin 1024) :
    (iblk m c 6 t : Vec Ideal S1x1024 .f32) (ix2 (0 : Fin 1) o) = m ((c : Thread nD τ).loc main_arg6) (ix1 o) :=
  (iblk6_V m c t o).trans (V_v10_apply m c o)

/-- Window 7's block at any point, read at (h, o), is the array it stages there: the block index is 0 on both axes. -/
theorem iblk7_V (t : Fin cfg0.N) (h o : Fin 1024) :
    (iblk m c 7 t : Vec Ideal S1024x1024 .bf16) (ix2 h o) = V m c main_v7 (ix2 h o) := by
  obtain ⟨e0, e1⟩ := (idx_whole t).2.2.2.2.2.2.1
  unfold iblk
  rw [View.read_apply]
  show V m c main_v7 _ = V m c main_v7 _
  congr 1
  funext a
  apply Fin.ext
  match a with
  | ⟨0, _⟩ => show win0_7.index t (0 : Fin 2) * 1024 + 1 * h.val = h.val; rw [e0]; omega
  | ⟨1, _⟩ => show win0_7.index t (1 : Fin 2) * 1024 + 1 * o.val = o.val; rw [e1]; omega

/-- So the body finds, in window 7 at (h, o), the launched output weights at (o, h). -/
theorem iblk7_apply (t : Fin cfg0.N) (h o : Fin 1024) :
    (iblk m c 7 t : Vec Ideal S1024x1024 .bf16) (ix2 h o) = m ((c : Thread nD τ).loc main_arg7) (ix2 o h) :=
  (iblk7_V m c t h o).trans (V_v7_apply m c h o)

/-- Window 8's block at any point, read at (0, o), is the array it stages there: the block index is 0 on both axes. -/
theorem iblk8_V (t : Fin cfg0.N) (o : Fin 1024) :
    (iblk m c 8 t : Vec Ideal S1x1024 .f32) (ix2 (0 : Fin 1) o) = V m c main_v11 (ix2 (0 : Fin 1) o) := by
  obtain ⟨e0, e1⟩ := (idx_whole t).2.2.2.2.2.2.2
  unfold iblk
  rw [View.read_apply]
  show V m c main_v11 _ = V m c main_v11 _
  congr 1
  funext a
  apply Fin.ext
  match a with
  | ⟨0, _⟩ => show win0_8.index t (0 : Fin 2) * 1 + 1 * (0 : Fin 1).val = (0 : Fin 1).val; rw [e0]; omega
  | ⟨1, _⟩ => show win0_8.index t (1 : Fin 2) * 1024 + 1 * o.val = o.val; rw [e1]; omega

/-- So the body finds, in window 8 at (0, o), the launched output bias at o. -/
theorem iblk8_apply (t : Fin cfg0.N) (o : Fin 1024) :
    (iblk m c 8 t : Vec Ideal S1x1024 .f32) (ix2 (0 : Fin 1) o) = m ((c : Thread nD τ).loc main_arg8) (ix1 o) :=
  (iblk8_V m c t o).trans (V_v11_apply m c o)

/-! ## The blocks of the input window -/

/-- The input window's index map, decided over the grid: the block index is the grid point on the batch axis and 0 on
    the other two. -/
theorem idx_input : ∀ t : Fin cfg0.N,
    win0_0.index t (0 : Fin 3) = t.val ∧ win0_0.index t (1 : Fin 3) = 0 ∧ win0_0.index t (2 : Fin 3) = 0 :=
  (by decide +kernel : ∀ t : Fin grid0.N, _)

/-- At grid point t the input window's block, read at (0, s, h), is the launched input at (t, s, h): one batch per
    point, and no host operation writes the input. -/
theorem iblk0_apply (t : Fin cfg0.N) (n : Fin 4) (hn : n.val = t.val) (s : Fin 2048) (h : Fin 1024) :
    (iblk m c 0 t : Vec Ideal S1x2048x1024 .f32) (ix3 (0 : Fin 1) s h) = m ((c : Thread nD τ).loc main_arg0) (ix3 n s h) := by
  obtain ⟨e0, e1, e2⟩ := idx_input t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * (0 : Fin 1).val = n.val; rw [e0, hn]; omega
  | ⟨1, _⟩ => show win0_0.index t (1 : Fin 3) * 2048 + 1 * s.val = s.val; rw [e1]; omega
  | ⟨2, _⟩ => show win0_0.index t (2 : Fin 3) * 1024 + 1 * h.val = h.val; rw [e2]; omega

end Cert.KernelIdeal.AttnHost

end
-- ==== Proof.AttnKernelArray.lean ====
/-
  From the block to the whole output array, and the run.

  At grid point t the body's output block, read at (0, s, o), is the one-row attention function at row s of the blocks
  the windows hand it. Those blocks are: batch t of the input; each weight matrix transposed; each bias as a row. So the
  block at (0, s, o) is the specified result at (t, s, o). The output window's block at point t is batch t of the output
  array, every point writes its block back, and the four blocks cover the array: the array ends holding the specified
  result everywhere, and the arguments are unchanged.
-/
import proofs.«176141_j53412213293575_2_alg».proof.Proof.KernelIdealValue
import proofs.«176141_j53412213293575_2_alg».proof.Proof.AttnKernelBlock
import proofs.«176141_j53412213293575_2_alg».proof.Proof.AttnKernelHost
import proofs.«176141_j53412213293575_2_alg».proof.Proof.AttnRow
import Idealize.ShloMosaic.Lib.ValueIdx
import Idealize.ShloMosaic.Lib.Pipeline.Value

noncomputable section

namespace Cert.KernelIdeal.AttnArr

open Cert.KernelIdeal Cert.KernelIdeal.Gen Cert.KernelIdeal.GenP Cert.KernelIdeal.ValueP Cert.KernelIdeal.AttnK
  Cert.KernelIdeal.AttnHost Idealize.ShloMosaic Idealize.ShloMosaic.ValueIdx Idealize.ShloMosaic.TcCoe Idealize.SL.Sem

variable (m : (ℓ : Loc nD τ sig) → Buf (Elt Ideal) ℓ) (ρ : Dev nD → PrngReg)

/-! ## The argument arrays as launched -/

/-- The input, [4, 2048, 1024]. -/
abbrev A0 (c : Dev nD) : Cert.Attn.Seq := m ((c : Thread nD τ).loc main_arg0)
/-- The query weights, stored [out, in]. -/
abbrev A1 (c : Dev nD) : Cert.Attn.Weight := m ((c : Thread nD τ).loc main_arg1)
/-- The query bias. -/
abbrev A2 (c : Dev nD) : Cert.Attn.Bias := m ((c : Thread nD τ).loc main_arg2)
/-- The key weights. -/
abbrev A3 (c : Dev nD) : Cert.Attn.Weight := m ((c : Thread nD τ).loc main_arg3)
/-- The key bias. -/
abbrev A4 (c : Dev nD) : Cert.Attn.Bias := m ((c : Thread nD τ).loc main_arg4)
/-- The value weights. -/
abbrev A5 (c : Dev nD) : Cert.Attn.Weight := m ((c : Thread nD τ).loc main_arg5)
/-- The value bias. -/
abbrev A6 (c : Dev nD) : Cert.Attn.Bias := m ((c : Thread nD τ).loc main_arg6)
/-- The output weights. -/
abbrev A7 (c : Dev nD) : Cert.Attn.Weight := m ((c : Thread nD τ).loc main_arg7)
/-- The output bias. -/
abbrev A8 (c : Dev nD) : Cert.Attn.Bias := m ((c : Thread nD τ).loc main_arg8)

/-! ## The block function at the windows' blocks is the specified result -/

/-- A linear layer on a block against a transposed weight and a bias row is the specified linear layer of batch n, when the
    block is batch n of the input, the weight is the [out, in] matrix transposed and the row is the bias. -/
theorem blkLin_eq (x : Vec Ideal S1x2048x1024 .f32) (w : Vec Ideal S1024x1024 .bf16) (b : Vec Ideal S1x1024 .f32)
    (X : Cert.Attn.Seq) (W : Cert.Attn.Weight) (B : Cert.Attn.Bias) (n : Fin 4)
    (hx : ∀ (s : Fin 2048) (h : Fin 1024), x (ix3 (0 : Fin 1) s h) = X (ix3 n s h))
    (hw : ∀ h o : Fin 1024, w (ix2 h o) = W (ix2 o h)) (hb : ∀ o : Fin 1024, b (ix2 (0 : Fin 1) o) = B (ix1 o))
    (s : Fin 2048) (h : Fin 1024) : blkLin x w b s h = Cert.Attn.lin X W B n s h := by
  unfold blkLin Cert.Attn.lin
  rw [hb]
  exact congrArg (· + B (ix1 h)) (Finset.sum_congr rfl fun h' _ => by rw [hx, hw])

/-- The block function at (0, s, o) is the specified result at (n, s, o), under the same readings of the nine blocks. -/
theorem blkOut_eq (x0 : Vec Ideal S1x2048x1024 .f32) (x1 : Vec Ideal S1024x1024 .bf16) (x2 : Vec Ideal S1x1024 .f32)
    (x3 : Vec Ideal S1024x1024 .bf16) (x4 : Vec Ideal S1x1024 .f32) (x5 : Vec Ideal S1024x1024 .bf16) (x6 : Vec Ideal S1x1024 .f32)
    (x7 : Vec Ideal S1024x1024 .bf16) (x8 : Vec Ideal S1x1024 .f32)
    (X : Cert.Attn.Seq) (Wq : Cert.Attn.Weight) (bq : Cert.Attn.Bias) (Wk : Cert.Attn.Weight) (bk : Cert.Attn.Bias)
    (Wv : Cert.Attn.Weight) (bv : Cert.Attn.Bias) (Wo : Cert.Attn.Weight) (bo : Cert.Attn.Bias) (n : Fin 4)
    (h0 : ∀ (s : Fin 2048) (h : Fin 1024), x0 (ix3 (0 : Fin 1) s h) = X (ix3 n s h))
    (h1 : ∀ h o : Fin 1024, x1 (ix2 h o) = Wq (ix2 o h)) (h2 : ∀ o : Fin 1024, x2 (ix2 (0 : Fin 1) o) = bq (ix1 o))
    (h3 : ∀ h o : Fin 1024, x3 (ix2 h o) = Wk (ix2 o h)) (h4 : ∀ o : Fin 1024, x4 (ix2 (0 : Fin 1) o) = bk (ix1 o))
    (h5 : ∀ h o : Fin 1024, x5 (ix2 h o) = Wv (ix2 o h)) (h6 : ∀ o : Fin 1024, x6 (ix2 (0 : Fin 1) o) = bv (ix1 o))
    (h7 : ∀ h o : Fin 1024, x7 (ix2 h o) = Wo (ix2 o h)) (h8 : ∀ o : Fin 1024, x8 (ix2 (0 : Fin 1) o) = bo (ix1 o))
    (s : Fin 2048) (o : Fin 1024) :
    blkOut x0 x1 x2 x3 x4 x5 x6 x7 x8 (ix3 (0 : Fin 1) s o) = Cert.Attn.outAt X Wq bq Wk bk Wv bv Wo bo n s o := by
  rw [blkOut_ix3, Cert.Attn.outAt_eq_rowOut]
  have e1 : blkLin x0 x1 x2 s = Cert.Attn.lin X Wq bq n s := funext fun h => blkLin_eq x0 x1 x2 X Wq bq n h0 h1 h2 s h
  have e2 : blkLin x0 x3 x4 = Cert.Attn.lin X Wk bk n := funext fun j => funext fun h => blkLin_eq x0 x3 x4 X Wk bk n h0 h3 h4 j h
  have e3 : blkLin x0 x5 x6 = Cert.Attn.lin X Wv bv n := funext fun j => funext fun h => blkLin_eq x0 x5 x6 X Wv bv n h0 h5 h6 j h
  have e4 : (fun o h : Fin 1024 => x7 (ix2 h o)) = fun o h => Wo (ix2 o h) := funext fun o => funext fun h => h7 h o
  have e5 : (fun o : Fin 1024 => x8 (ix2 (0 : Fin 1) o)) = fun o => bo (ix1 o) := funext h8
  rw [e1, e2, e3, e4, e5]

/-- At grid point t the block function of the nine windows' blocks, at (0, s, o), is the specified result at (t, s, o). -/
theorem blk_spec (c : Dev nD) (t : Fin cfg0.N) (n : Fin 4) (hn : n.val = t.val) (s : Fin 2048) (o : Fin 1024) :
    blkOut (iblk m c 0 t) (iblk m c 1 t) (iblk m c 2 t) (iblk m c 3 t) (iblk m c 4 t) (iblk m c 5 t) (iblk m c 6 t)
        (iblk m c 7 t) (iblk m c 8 t) (ix3 (0 : Fin 1) s o)
      = Cert.Attn.outAt (A0 m c) (A1 m c) (A2 m c) (A3 m c) (A4 m c) (A5 m c) (A6 m c) (A7 m c) (A8 m c) n s o :=
  blkOut_eq (iblk m c 0 t) (iblk m c 1 t) (iblk m c 2 t) (iblk m c 3 t) (iblk m c 4 t) (iblk m c 5 t) (iblk m c 6 t)
    (iblk m c 7 t) (iblk m c 8 t) (A0 m c) (A1 m c) (A2 m c) (A3 m c) (A4 m c) (A5 m c) (A6 m c) (A7 m c) (A8 m c) n
    (iblk0_apply m c t n hn) (iblk1_apply m c t) (iblk2_apply m c t) (iblk3_apply m c t) (iblk4_apply m c t)
    (iblk5_apply m c t) (iblk6_apply m c t) (iblk7_apply m c t) (iblk8_apply m c t) s o

/-! ## What each point writes back -/

/-- The hypothesis on the body: at any point, whatever staging memrefs it is given, the output block the body leaves is the
    block function of the nine blocks it was handed. -/
def OutBlock : Prop :=
  ∀ (c : Dev nD) (i : grid0.Coords) (arg1 : Memref sig .tc .vmem S1x2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x2048x1024 .f32) (harg10 : arg10.IsWhole) (arg11 : Memref sig .tc .vmem S2048x1024 .bf16) (harg11 : arg11.IsWhole) (arg12 : Memref sig .tc .vmem S2048x1024 .bf16) (harg12 : arg12.IsWhole)
    (x0 : Vec Ideal S1x2048x1024 .f32) (x1 : Vec Ideal S1024x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32),
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = blkOut x0 x1 x2 x3 x4 x5 x6 x7 x8

/-- The output window's index map, decided over the grid: the block index is the grid point on the batch axis and 0 on
    the other two. -/
theorem idx_output : ∀ t : Fin cfg0.N,
    win0_9.index t (0 : Fin 3) = t.val ∧ win0_9.index t (1 : Fin 3) = 0 ∧ win0_9.index t (2 : Fin 3) = 0 :=
  (by decide +kernel : ∀ t : Fin grid0.N, _)

/-- What point t writes back is block t of the specified result: the block is stored whole, so what is written is the
    block function at (0, s, o), which is the specified result at (t, s, o), and the block sits at batch t of the array. -/
theorem flushed_eq (hout : OutBlock) (c : Dev nD) (t : Fin cfg0.N) :
    (dats m 0 c).flushed 9 t = ((cfg0.win 9).blk t).view.read (Elt Ideal) (Cert.Attn.out (A0 m c) (A1 m c) (A2 m c) (A3 m c) (A4 m c) (A5 m c) (A6 m c) (A7 m c) (A8 m c)) := by
  rw [flushed9_A, hout]
  obtain ⟨e0, e1, e2⟩ := idx_output t
  have hN : cfg0.N = 4 := N_0
  have ht : t.val < 4 := by have := t.isLt; omega
  funext y
  have hy0 : (y 0).val < 1 := (y 0).isLt
  have hy1 : (y 1).val < 2048 := (y 1).isLt
  have hy2 : (y 2).val < 1024 := (y 2).isLt
  rw [View.read_apply]
  show blkOut (iblk m c 0 t) (iblk m c 1 t) (iblk m c 2 t) (iblk m c 3 t) (iblk m c 4 t) (iblk m c 5 t) (iblk m c 6 t) (iblk m c 7 t) (iblk m c 8 t) ((cfg0.win 9).xinj (grid0.coords t) y)
    = (Cert.Attn.out (A0 m c) (A1 m c) (A2 m c) (A3 m c) (A4 m c) (A5 m c) (A6 m c) (A7 m c) (A8 m c)) (((cfg0.win 9).blk t).view.emb y)
  have hl : (cfg0.win 9).xinj (grid0.coords t) y = ix3 (0 : Fin 1) (⟨(y 1).val, hy1⟩ : Fin 2048) (⟨(y 2).val, hy2⟩ : Fin 1024) :=
    funext fun a => Fin.ext (by
      match a with
      | ⟨0, _⟩ => show (y 0).val = 0; omega
      | ⟨1, _⟩ => rfl
      | ⟨2, _⟩ => rfl)
  have hr : ((cfg0.win 9).blk t).view.emb y = ix3 (⟨t.val, ht⟩ : Fin 4) (⟨(y 1).val, hy1⟩ : Fin 2048) (⟨(y 2).val, hy2⟩ : Fin 1024) :=
    funext fun a => Fin.ext (by
      match a with
      | ⟨0, _⟩ => show win0_9.index t (0 : Fin 3) * 1 + 1 * (y 0).val = t.val; rw [e0]; omega
      | ⟨1, _⟩ => show win0_9.index t (1 : Fin 3) * 2048 + 1 * (y 1).val = (y 1).val; rw [e1]; omega
      | ⟨2, _⟩ => show win0_9.index t (2 : Fin 3) * 1024 + 1 * (y 2).val = (y 2).val; rw [e2]; omega)
  rw [hl, hr, blk_spec m c t ⟨t.val, ht⟩ rfl, Cert.Attn.out_ix3]

/-! ## The whole array -/

/-- An index of the array is in point t's block iff each coordinate is in the block's range on its axis. -/
theorem mem_blk (t : Fin cfg0.N) (i : S4x2048x1024.Idx) :
    i ∈ ((cfg0.win 9).blk t).view.set ↔ ∀ a : Fin 3, win0_9.index t a * S1x2048x1024.size a ≤ (i a).val
      ∧ (i a).val < win0_9.index t a * S1x2048x1024.size a + S1x2048x1024.size a := by
  show i ∈ ((View.whole main_v12).slice (win0_9.rect t)).set ↔ _
  rw [View.set_slice_whole, Rect.mem_set_unit]
  exact Iff.rfl

/-- Every index of the array is in the block of the point equal to its batch coordinate, and every point writes back. -/
theorem cover (i : S4x2048x1024.Idx) :
    ∃ t : Fin cfg0.N, (cfg0.win 9).flush t = true ∧ i ∈ ((cfg0.win 9).blk t).view.set := by
  have hN : cfg0.N = 4 := N_0
  have hi0 : (i 0).val < 4 := (i 0).isLt
  have hi1 : (i 1).val < 2048 := (i 1).isLt
  have hi2 : (i 2).val < 1024 := (i 2).isLt
  have ht : (i 0).val < cfg0.N := by omega
  refine ⟨⟨(i 0).val, ht⟩, flush0_9 _, ?_⟩
  rw [mem_blk]
  obtain ⟨e0, e1, e2⟩ := idx_output ⟨(i 0).val, ht⟩
  intro a
  match a with
  | ⟨0, _⟩ =>
    show win0_9.index ⟨(i 0).val, ht⟩ (0 : Fin 3) * 1 ≤ (i 0).val ∧ (i 0).val < win0_9.index ⟨(i 0).val, ht⟩ (0 : Fin 3) * 1 + 1
    rw [e0]; show (i 0).val * 1 ≤ (i 0).val ∧ (i 0).val < (i 0).val * 1 + 1; omega
  | ⟨1, _⟩ =>
    show win0_9.index ⟨(i 0).val, ht⟩ (1 : Fin 3) * 2048 ≤ (i 1).val ∧ (i 1).val < win0_9.index ⟨(i 0).val, ht⟩ (1 : Fin 3) * 2048 + 2048
    rw [e1]; omega
  | ⟨2, _⟩ =>
    show win0_9.index ⟨(i 0).val, ht⟩ (2 : Fin 3) * 1024 ≤ (i 2).val ∧ (i 2).val < win0_9.index ⟨(i 0).val, ht⟩ (2 : Fin 3) * 1024 + 1024
    rw [e2]; omega

/-- The output array after the run is the specified result: every point writes back its block of it, and the blocks
    cover the array. -/
theorem final (hout : OutBlock) (c : Dev nD) : (dats m 0 c).arrAt 9 cfg0.N = Cert.Attn.out (A0 m c) (A1 m c) (A2 m c) (A3 m c) (A4 m c) (A5 m c) (A6 m c) (A7 m c) (A8 m c) :=
  (dats m 0 c).arrAt_eq_of_cover 9 (Cert.Attn.out (A0 m c) (A1 m c) (A2 m c) (A3 m c) (A4 m c) (A5 m c) (A6 m c) (A7 m c) (A8 m c)) (fun t _ => flushed_eq m hout c t) cover

/-! ## The run -/

/-- Every weakly fair execution of the program ends with the output array at the specified result of the argument
    arrays, and the argument arrays unchanged. -/
theorem run (hout : OutBlock) : θ_run defs (onTc (τ := τ) (main (F := Ideal))) ⟨m, fun _ => 0, ρ⟩ fun r => ∀ c : Dev nD,
      r.2.mem ((c : Thread nD τ).loc main_v12) = Cert.Attn.out (A0 m c) (A1 m c) (A2 m c) (A3 m c) (A4 m c) (A5 m c) (A6 m c) (A7 m c) (A8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m hout c), (h c).2⟩) (run_blocks m ρ)

end Cert.KernelIdeal.AttnArr

end
-- ==== Proof.AttnConsts.lean ====
/-
  The two f32 words the scores' scale is written with, read as extended reals, and the law between them.

  The word 0x44800000 denotes the real 1024 and the word 0x3D000000 denotes the real 1/32. Since 1024 = 32², the square
  root of the first is 32, so dividing an extended real by that square root is multiplying it by the second word:
    x / √1024 = x · (1/32).
-/
import Idealize.ShloMosaic.PureOps.Ideal

noncomputable section

namespace Cert.AttnConsts

open Idealize.ShloMosaic

/-- The f32 word 0x44800000 denotes the real 1024 (= 2¹⁰). -/
theorem ofBits_1024 : Ideal.ofBits .f32 0x44800000#32 = ((1024 : ℝ) : EReal) := by
  simp [Ideal.ofBits, Ideal.ieee, -EReal.coe_mul]; norm_num

/-- The f32 word 0x3D000000 denotes the real 1/32 (= 2⁻⁵). -/
theorem ofBits_inv32 : Ideal.ofBits .f32 0x3D000000#32 = ((1 / 32 : ℝ) : EReal) := by
  simp [Ideal.ofBits, Ideal.ieee, -EReal.coe_mul]; norm_num

/-- The real square root of 1024 is 32, because 1024 = 32². -/
theorem sqrt_1024 : Real.sqrt 1024 = 32 := by
  rw [show (1024 : ℝ) = 32 ^ 2 by norm_num]
  exact Real.sqrt_sq (by norm_num)

/-- The square root of the word of 1024, on the extended reals, is the real 32. -/
theorem sqrt_ofBits_1024 : Ideal.sqrt (Ideal.ofBits .f32 0x44800000#32) = ((32 : ℝ) : EReal) := by
  rw [ofBits_1024, Ideal.sqrt_coe, if_neg (by norm_num), sqrt_1024]

/-- Dividing by the square root of the word of 1024 is multiplying by the word of 1/32, on every extended real. -/
theorem div_sqrt_1024 (x : EReal) :
    Ideal.div x (Ideal.sqrt (Ideal.ofBits .f32 0x44800000#32)) = x * Ideal.ofBits .f32 0x3D000000#32 := by
  rw [sqrt_ofBits_1024, ofBits_inv32, Ideal.div_coe (by norm_num : (32 : ℝ) ≠ 0)]

end Cert.AttnConsts

end
-- ==== Proof.AttnReference.lean ====
/-
  The reference program computes single-head attention, element by element on the extended reals.

  Read one operation at a time, the reference is: three linear layers of the same input rows (a contraction over
  the hidden coordinate plus a bias broadcast along batch and row); the inner products of query rows with key rows
  divided by the square root of the hidden width; each row's maximum, folded from −∞; the exponentials of the
  scores shifted by their row's maximum; each row's sum of exponentials; their quotients; the contraction of those
  weights with the value rows; and a last linear layer. Each stage below is identified, at explicit coordinates,
  with the corresponding function of the specification, and the last theorem assembles them into the equality of
  the reference's result array with the specified one.
-/
import proofs.«176141_j53412213293575_2_alg».proof.Proof.Gen.ReferenceIdeal.Read
import proofs.«176141_j53412213293575_2_alg».proof.Proof.AttnSpec
import proofs.«176141_j53412213293575_2_alg».proof.Proof.AttnConsts
import Idealize.ShloMosaic.Lib.ValueIdx
import Idealize.ShloMosaic.PureOps.Ideal.Laws

noncomputable section

namespace Cert.AttnRef

open Idealize.ShloMosaic Idealize.ShloMosaic.ValueIdx Cert.ReferenceIdeal Cert.ReferenceIdeal.Gen Cert.ReferenceIdeal.Read
open Cert.Attn (Seq Weight Bias)

/-! ## The reference's index maps at coordinates -/

/-- The left operand of a linear layer is read at the same batch and row, at the contracted hidden coordinate. -/
theorem lidx_v0 (n : Fin 4) (s : Fin 2048) (o k : Fin 1024) : lidx_main_v0 (ix3 n s o) k = ix3 n s k :=
  funext fun a => Fin.ext (by match a with | ⟨0, _⟩ => rfl | ⟨1, _⟩ => rfl | ⟨2, _⟩ => rfl)

/-- The weights of a linear layer are read at the output coordinate's row, at the contracted hidden coordinate. -/
theorem ridx_v0 (n : Fin 4) (s : Fin 2048) (o k : Fin 1024) : ridx_main_v0 (ix3 n s o) k = ix2 o k :=
  funext fun a => Fin.ext (by match a with | ⟨0, _⟩ => rfl | ⟨1, _⟩ => rfl)

/-- The bias, broadcast along batch and row, is read at the output coordinate. -/
theorem idx_v1_v2 (n : Fin 4) (s : Fin 2048) (o : Fin 1024) : idx_main_v1 (idx_main_v2 (ix3 n s o)) = ix1 o :=
  funext fun a => Fin.ext (by match a with | ⟨0, _⟩ => rfl)

/-- The key layer's left operand: same batch and row, contracted hidden coordinate. -/
theorem lidx_v4 (n : Fin 4) (s : Fin 2048) (o k : Fin 1024) : lidx_main_v4 (ix3 n s o) k = ix3 n s k :=
  funext fun a => Fin.ext (by match a with | ⟨0, _⟩ => rfl | ⟨1, _⟩ => rfl | ⟨2, _⟩ => rfl)

/-- The key layer's weights: the output coordinate's row, contracted hidden coordinate. -/
theorem ridx_v4 (n : Fin 4) (s : Fin 2048) (o k : Fin 1024) : ridx_main_v4 (ix3 n s o) k = ix2 o k :=
  funext fun a => Fin.ext (by match a with | ⟨0, _⟩ => rfl | ⟨1, _⟩ => rfl)

/-- The key layer's bias, broadcast along batch and row, is read at the output coordinate. -/
theorem idx_v5_v6 (n : Fin 4) (s : Fin 2048) (o : Fin 1024) : idx_main_v5 (idx_main_v6 (ix3 n s o)) = ix1 o :=
  funext fun a => Fin.ext (by match a with | ⟨0, _⟩ => rfl)

/-- The value layer's left operand: same batch and row, contracted hidden coordinate. -/
theorem lidx_v8 (n : Fin 4) (s : Fin 2048) (o k : Fin 1024) : lidx_main_v8 (ix3 n s o) k = ix3 n s k :=
  funext fun a => Fin.ext (by match a with | ⟨0, _⟩ => rfl | ⟨1, _⟩ => rfl | ⟨2, _⟩ => rfl)

/-- The value layer's weights: the output coordinate's row, contracted hidden coordinate. -/
theorem ridx_v8 (n : Fin 4) (s : Fin 2048) (o k : Fin 1024) : ridx_main_v8 (ix3 n s o) k = ix2 o k :=
  funext fun a => Fin.ext (by match a with | ⟨0, _⟩ => rfl | ⟨1, _⟩ => rfl)

/-- The value layer's bias, broadcast along batch and row, is read at the output coordinate. -/
theorem idx_v9_v10 (n : Fin 4) (s : Fin 2048) (o : Fin 1024) : idx_main_v9 (idx_main_v10 (ix3 n s o)) = ix1 o :=
  funext fun a => Fin.ext (by match a with | ⟨0, _⟩ => rfl)

/-- The scores' left operand: the query row `s` of the same batch, at the contracted hidden coordinate. -/
theorem lidx_v12 (n : Fin 4) (s j : Fin 2048) (k : Fin 1024) : lidx_main_v12 (ix3 n s j) k = ix3 n s k :=
  funext fun a => Fin.ext (by match a with | ⟨0, _⟩ => rfl | ⟨1, _⟩ => rfl | ⟨2, _⟩ => rfl)

/-- The scores' right operand: the key row `j` of the same batch, at the contracted hidden coordinate. -/
theorem ridx_v12 (n : Fin 4) (s j : Fin 2048) (k : Fin 1024) : ridx_main_v12 (ix3 n s j) k = ix3 n j k :=
  funext fun a => Fin.ext (by match a with | ⟨0, _⟩ => rfl | ⟨1, _⟩ => rfl | ⟨2, _⟩ => rfl)

/-! ## The three linear layers -/

/-- The query layer: the contraction of the input row with a weight row, plus the broadcast bias. -/
theorem ref_q (x0 : Seq) (x1 : Weight) (x2 : Bias) (n : Fin 4) (s : Fin 2048) (o : Fin 1024) :
    val_main_v3 (F := Ideal) x0 x1 x2 (ix3 n s o) = Cert.Attn.lin x0 x1 x2 n s o := by
  rw [val_main_v3_apply, val_main_v0_apply, val_main_v2_apply, val_main_v1_apply]
  simp only [lidx_v0, ridx_v0, idx_v1_v2, Ideal.addf_def, Cert.Attn.lin]

/-- The key layer: the same linear layer with the key weights and bias. -/
theorem ref_k (x0 : Seq) (x3 : Weight) (x4 : Bias) (n : Fin 4) (s : Fin 2048) (o : Fin 1024) :
    val_main_v7 (F := Ideal) x0 x3 x4 (ix3 n s o) = Cert.Attn.lin x0 x3 x4 n s o := by
  rw [val_main_v7_apply, val_main_v4_apply, val_main_v6_apply, val_main_v5_apply]
  simp only [lidx_v4, ridx_v4, idx_v5_v6, Ideal.addf_def, Cert.Attn.lin]

/-- The value layer: the same linear layer with the value weights and bias. -/
theorem ref_v (x0 : Seq) (x5 : Weight) (x6 : Bias) (n : Fin 4) (s : Fin 2048) (o : Fin 1024) :
    val_main_v11 (F := Ideal) x0 x5 x6 (ix3 n s o) = Cert.Attn.lin x0 x5 x6 n s o := by
  rw [val_main_v11_apply, val_main_v8_apply, val_main_v10_apply, val_main_v9_apply]
  simp only [lidx_v8, ridx_v8, idx_v9_v10, Ideal.addf_def, Cert.Attn.lin]

/-! ## The scaled scores -/

/-- The score of query row `s` against key row `j`: their inner product over the hidden coordinate, divided by the
    square root of the word of 1024, which is the product with the word of 1/32. -/
theorem ref_score (x0 : Seq) (x1 : Weight) (x2 : Bias) (x3 : Weight) (x4 : Bias) (n : Fin 4) (s j : Fin 2048) :
    val_main_v15 (F := Ideal) x0 x1 x2 x3 x4 (ix3 n s j) = Cert.Attn.score x0 x1 x2 x3 x4 n s j := by
  rw [val_main_v15_apply, val_main_v12_apply, val_main_v14_apply, val_main_v13_apply, val_main_cst_apply]
  simp only [lidx_v12, ridx_v12, ref_q, ref_k, Ideal.hostDivf_def, Ideal.hostUnary_sqrt_def, Ideal.ofBits_def,
    Cert.AttnConsts.div_sqrt_1024, Cert.Attn.score]

/-! ## The row maximum -/

/-- Dropping the last axis of [4, 2048, 2048] leaves [4, 2048]. -/
theorem reduces_row : S4x2048x2048.Reduces [2] S4x2048 := by decide

/-- Inserting the coordinate `k` on the dropped axis of the index (n, s) gives the index (n, s, k). -/
theorem lift_row (n : Fin 4) (s k : Fin 2048) : reduces_row.lift (ix2 n s) k = ix3 n s k :=
  funext fun a => Fin.ext (by match a with | ⟨0, _⟩ => rfl | ⟨1, _⟩ => rfl | ⟨2, _⟩ => rfl)

/-- The reduction with `max` over the key axis, from the word of −∞: `max` commutes and associates, so the fold over
    the indices of a row is the fold over the row's key coordinates, and each element folded is a score. -/
theorem ref_fold (x0 : Seq) (x1 : Weight) (x2 : Bias) (x3 : Weight) (x4 : Bias) (n : Fin 4) (s : Fin 2048) :
    val_main_v16 (F := Ideal) x0 x1 x2 x3 x4 (ix2 n s) = Cert.Attn.rowMax x0 x1 x2 x3 x4 n s := by
  unfold val_main_v16
  rw [Host.reduce_eq_fold_single FloatOps.maximumf _ _ reducesTo_S4x2048x2048_S4x2048_d2 reduces_row h_S_]
  show (Finset.univ : Finset (Fin 2048)).fold max (Ideal.ofBits .f32 0xFF800000#32)
      (val_main_v15 (F := Ideal) x0 x1 x2 x3 x4 ∘ reduces_row.lift (ix2 n s)) = _
  unfold Cert.Attn.rowMax
  exact Finset.fold_congr fun j _ =>
    (congrArg (val_main_v15 (F := Ideal) x0 x1 x2 x3 x4) (lift_row n s j)).trans (ref_score x0 x1 x2 x3 x4 n s j)

/-- The reference takes the larger of −∞ and that fold; the fold already starts from −∞, so it is at least −∞ and
    the larger of the two is the fold. -/
theorem ref_rowMax (x0 : Seq) (x1 : Weight) (x2 : Bias) (x3 : Weight) (x4 : Bias) (n : Fin 4) (s : Fin 2048) :
    val_main_v18 (F := Ideal) x0 x1 x2 x3 x4 (ix2 n s) = Cert.Attn.rowMax x0 x1 x2 x3 x4 n s := by
  rw [val_main_v18_apply, val_main_v17_apply, val_main_cst_1_apply, ref_fold, Ideal.maximumf_def, Ideal.ofBits_def]
  apply max_eq_right
  unfold Cert.Attn.rowMax
  exact (Finset.le_fold_max _).mpr (Or.inl le_rfl)

/-! ## The exponentials, their row sums and the softmax weights -/

/-- A row's value broadcast back along the key axis is read at (n, s). -/
theorem idx_v19_v20 (n : Fin 4) (s j : Fin 2048) : idx_main_v19 (idx_main_v20 (ix3 n s j)) = ix2 n s :=
  funext fun a => Fin.ext (by match a with | ⟨0, _⟩ => rfl | ⟨1, _⟩ => rfl)

/-- The exponential of a score minus its row's maximum. -/
theorem ref_expo (x0 : Seq) (x1 : Weight) (x2 : Bias) (x3 : Weight) (x4 : Bias) (n : Fin 4) (s j : Fin 2048) :
    val_main_v22 (F := Ideal) x0 x1 x2 x3 x4 (ix3 n s j) = Cert.Attn.expo x0 x1 x2 x3 x4 n s j := by
  rw [val_main_v22_apply, val_main_v21_apply, val_main_v20_apply, val_main_v19_apply]
  simp only [idx_v19_v20, ref_score, ref_rowMax, Ideal.hostUnary_exp_def, Ideal.subf_def, Cert.Attn.expo]

/-- The row sum reads the exponentials of row (n, s) along the key coordinate. -/
theorem idx_v23 (n : Fin 4) (s k : Fin 2048) : idx_main_v23 (ix2 n s) k = ix3 n s k :=
  funext fun a => Fin.ext (by match a with | ⟨0, _⟩ => rfl | ⟨1, _⟩ => rfl | ⟨2, _⟩ => rfl)

/-- The sum of a row's exponentials: the reduction starts from the zero word, which denotes 0. -/
theorem ref_rowSum (x0 : Seq) (x1 : Weight) (x2 : Bias) (x3 : Weight) (x4 : Bias) (n : Fin 4) (s : Fin 2048) :
    val_main_v23 (F := Ideal) x0 x1 x2 x3 x4 (ix2 n s) = Cert.Attn.rowSum x0 x1 x2 x3 x4 n s := by
  rw [val_main_v23_apply, val_main_cst_2_apply]
  simp only [idx_v23, ref_expo, Ideal.ofBits_def, Ideal.ofBits_zero_f32, zero_add, Cert.Attn.rowSum]

/-- A row's sum broadcast back along the key axis is read at (n, s). -/
theorem idx_v24_v25 (n : Fin 4) (s j : Fin 2048) : idx_main_v24 (idx_main_v25 (ix3 n s j)) = ix2 n s :=
  funext fun a => Fin.ext (by match a with | ⟨0, _⟩ => rfl | ⟨1, _⟩ => rfl)

/-- The softmax weight: an exponential divided by its row's sum. -/
theorem ref_weight (x0 : Seq) (x1 : Weight) (x2 : Bias) (x3 : Weight) (x4 : Bias) (n : Fin 4) (s j : Fin 2048) :
    val_main_v26 (F := Ideal) x0 x1 x2 x3 x4 (ix3 n s j) = Cert.Attn.weight x0 x1 x2 x3 x4 n s j := by
  rw [val_main_v26_apply, val_main_v25_apply, val_main_v24_apply]
  simp only [idx_v24_v25, ref_expo, ref_rowSum, Ideal.hostDivf_def, Cert.Attn.weight]

/-! ## The context and the output projection -/

/-- The context's left operand: the weights of row (n, s) at the contracted key coordinate. -/
theorem lidx_v27 (n : Fin 4) (s : Fin 2048) (h : Fin 1024) (k : Fin 2048) : lidx_main_v27 (ix3 n s h) k = ix3 n s k :=
  funext fun a => Fin.ext (by match a with | ⟨0, _⟩ => rfl | ⟨1, _⟩ => rfl | ⟨2, _⟩ => rfl)

/-- The context's right operand: the value row at the contracted key coordinate, at the hidden coordinate `h`. -/
theorem ridx_v27 (n : Fin 4) (s : Fin 2048) (h : Fin 1024) (k : Fin 2048) : ridx_main_v27 (ix3 n s h) k = ix3 n k h :=
  funext fun a => Fin.ext (by match a with | ⟨0, _⟩ => rfl | ⟨1, _⟩ => rfl | ⟨2, _⟩ => rfl)

/-- The context: the contraction over the key coordinate of the softmax weights with the value rows. -/
theorem ref_ctx (x0 : Seq) (x1 : Weight) (x2 : Bias) (x3 : Weight) (x4 : Bias) (x5 : Weight) (x6 : Bias)
    (n : Fin 4) (s : Fin 2048) (h : Fin 1024) :
    val_main_v27 (F := Ideal) x0 x1 x2 x3 x4 x5 x6 (ix3 n s h) = Cert.Attn.ctx x0 x1 x2 x3 x4 x5 x6 n s h := by
  rw [val_main_v27_apply]
  simp only [lidx_v27, ridx_v27, ref_weight, ref_v, Cert.Attn.ctx]

/-- The output layer's left operand: the context row (n, s) at the contracted hidden coordinate. -/
theorem lidx_v28 (n : Fin 4) (s : Fin 2048) (o k : Fin 1024) : lidx_main_v28 (ix3 n s o) k = ix3 n s k :=
  funext fun a => Fin.ext (by match a with | ⟨0, _⟩ => rfl | ⟨1, _⟩ => rfl | ⟨2, _⟩ => rfl)

/-- The output layer's weights: the output coordinate's row, at the contracted hidden coordinate. -/
theorem ridx_v28 (n : Fin 4) (s : Fin 2048) (o k : Fin 1024) : ridx_main_v28 (ix3 n s o) k = ix2 o k :=
  funext fun a => Fin.ext (by match a with | ⟨0, _⟩ => rfl | ⟨1, _⟩ => rfl)

/-- The output bias, broadcast along batch and row, is read at the output coordinate. -/
theorem idx_v29_v30 (n : Fin 4) (s : Fin 2048) (o : Fin 1024) : idx_main_v29 (idx_main_v30 (ix3 n s o)) = ix1 o :=
  funext fun a => Fin.ext (by match a with | ⟨0, _⟩ => rfl)

/-- The output projection: the contraction of the context row with a row of the output weights, plus the bias. -/
theorem ref_out (x0 : Seq) (x1 : Weight) (x2 : Bias) (x3 : Weight) (x4 : Bias) (x5 : Weight) (x6 : Bias) (x7 : Weight)
    (x8 : Bias) (n : Fin 4) (s : Fin 2048) (o : Fin 1024) :
    val_main_v31 (F := Ideal) x0 x1 x2 x3 x4 x5 x6 x7 x8 (ix3 n s o)
      = Cert.Attn.outAt x0 x1 x2 x3 x4 x5 x6 x7 x8 n s o := by
  rw [val_main_v31_apply, val_main_v28_apply, val_main_v30_apply, val_main_v29_apply]
  simp only [lidx_v28, ridx_v28, idx_v29_v30, ref_ctx, Ideal.addf_def, Cert.Attn.outAt]

/-! ## The whole result array -/

/-- The reference's result array is the specified one: every index is (n, s, o) for its three coordinates, and at
    such an index both are the output projection above. -/
theorem reference_eq (x0 : Cert.Attn.Seq) (x1 : Cert.Attn.Weight) (x2 : Cert.Attn.Bias) (x3 : Cert.Attn.Weight)
    (x4 : Cert.Attn.Bias) (x5 : Cert.Attn.Weight) (x6 : Cert.Attn.Bias) (x7 : Cert.Attn.Weight) (x8 : Cert.Attn.Bias) :
    Cert.ReferenceIdeal.Read.val_main_v31 (F := Ideal) x0 x1 x2 x3 x4 x5 x6 x7 x8
      = Cert.Attn.out x0 x1 x2 x3 x4 x5 x6 x7 x8 := by
  funext i
  obtain ⟨n, s, o, rfl⟩ : ∃ (n : Fin 4) (s : Fin 2048) (o : Fin 1024), i = ix3 n s o := ⟨i 0, i 1, i 2, eq_ix3 i⟩
  rw [ref_out, Cert.Attn.out_ix3]

end Cert.AttnRef

end
-- ==== Proof.lean ====
/-
  Fused single-head attention in one kernel against its plain reference: the certificate's five claims.

  The kernel computes, for each batch, the key and value layers of all 2048 rows into scratch arrays and then, tile
  by tile, the softmax attention of each row's query vector against them, projected by the output weight; the
  reference computes the same eight stages on whole arrays. On the extended reals both are the function
  `Cert.Attn.out` of the nine argument arrays (Proof/AttnSpec.lean): the kernel's result because every block it
  writes back is the one-row attention function at every row of the batch (Proof/AttnKernelOut.lean,
  Proof/AttnKernelArray.lean), the reference's because its operations, read one at a time at an index, compose to
  that function (Proof/AttnReference.lean). Two spellings differ and are equal on every extended real: the
  kernel multiplies the scores by the f32 word of 1/32 where the reference divides by the square root of 1024, and
  the reference takes one more maximum with −∞. Neither needs the inputs to be finite, so the precondition is not
  opened. The three frame claims are each program's own run with the result dropped; the idealization rewrote no
  operation, so `preserves` is `True`.
-/
import proofs.«176141_j53412213293575_2_alg».proof.Defs
import proofs.«176141_j53412213293575_2_alg».proof.Proof.Gen.Kernel
import proofs.«176141_j53412213293575_2_alg».proof.Proof.Gen.KernelIdeal
import proofs.«176141_j53412213293575_2_alg».proof.Proof.Gen.ReferenceIdeal
import proofs.«176141_j53412213293575_2_alg».proof.Proof.Gen.Pre_finite_inputs
import proofs.«176141_j53412213293575_2_alg».proof.Proof.Gen.ReferenceIdeal.Run
import proofs.«176141_j53412213293575_2_alg».proof.Proof.Gen.ReferenceIdeal.Read
import proofs.«176141_j53412213293575_2_alg».proof.Proof.KernelFrame
import proofs.«176141_j53412213293575_2_alg».proof.Proof.KernelIdealFrame
import proofs.«176141_j53412213293575_2_alg».proof.Proof.AttnKernelOut
import proofs.«176141_j53412213293575_2_alg».proof.Proof.AttnKernelArray
import proofs.«176141_j53412213293575_2_alg».proof.Proof.AttnReference
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨?_, ?_, ?_, trivial, ?_⟩
  -- the word-level kernel runs and leaves its arguments as they were
  · exact fun m ρ _ => Cert.Kernel.GenP.frame m ρ
  -- so does the idealized kernel
  · exact fun m ρ _ => Cert.KernelIdeal.GenP.frame m ρ
  -- and the reference: its run, with what it says of the result dropped
  · exact fun m ρ _ => (θ_run Cert.ReferenceIdeal.defs _ _).mono (fun _ h c => (h c).2)
      (Cert.ReferenceIdeal.Value.run (F := Ideal) m ρ)
  -- both idealized programs end with the specification's array of the (agreeing) arguments
  · intro m ρ m' ρ' _ hagree
    refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
    · exact Cert.KernelIdeal.AttnArr.run m ρ
        (fun c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 =>
          Cert.KernelIdeal.AttnK.out_block c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)
    · refine (θ_run Cert.ReferenceIdeal.defs _ _).mono (fun _ h c => ⟨?_, (h c).2⟩)
        (Cert.ReferenceIdeal.Value.run (F := Ideal) m' ρ')
      obtain ⟨e0, e1, e2, e3, e4, e5, e6, e7, e8⟩ := hagree c
      rw [(h c).1, Cert.ReferenceIdeal.Read.val_main_v31_eq, Cert.AttnRef.reference_eq, e0, e1, e2, e3, e4, e5, e6, e7, e8]⟩

end Cert.Proof

end
